-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v133)) (v1 : (c : Dev Cert.KernelIdeal.nD) → Buf (Elt Ideal) ((c.tc : Thread Cert.KernelIdeal.nD Cert.KernelIdeal.τ).loc Cert.KernelIdeal.main_v134)) (v2 : (c : Dev Cert.KernelIdeal.nD) → Buf (Elt Ideal) ((c.tc : Thread Cert.KernelIdeal.nD Cert.KernelIdeal.τ).loc Cert.KernelIdeal.main_v136)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v133) = v0 c
          ∧ r.2.mem ((c.tc : Thread Cert.KernelIdeal.nD Cert.KernelIdeal.τ).loc Cert.KernelIdeal.main_v134) = v1 c
          ∧ r.2.mem ((c.tc : Thread Cert.KernelIdeal.nD Cert.KernelIdeal.τ).loc Cert.KernelIdeal.main_v136) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S50000x128 : Shape := ⟨2, ![50000, 128]⟩
abbrev S2x128 : Shape := ⟨2, ![2, 128]⟩
abbrev S2x300000 : Shape := ⟨2, ![2, 300000]⟩
abbrev S300000 : Shape := ⟨1, ![300000]⟩
abbrev S128x128 : Shape := ⟨2, ![128, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S2x128 : S_.BroadcastsInDim S2x128 (![] : Fin 0 → Fin S2x128.rank)
  reducesTo_S2x128_S_d0_1 : S2x128.ReducesTo [0, 1] S_
  bcast_S_S300000 : S_.BroadcastsInDim S300000 (![] : Fin 0 → Fin S300000.rank)
  reducesTo_S300000_S_d0 : S300000.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg9 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  main_v38

def fn_part1 {F : FTy → Type} [FloatOps F] (main_arg6 : FVec F S300000 .f32) (main_arg7 : FVec F S128x128 .f32) (main_arg8 : FVec F S128x128 .f32) (main_arg9 : FVec F S128x128 .f32) (main_v13 : IVec S_ 1) (main_v16 : IVec S300000 1) : IVec S_ 1 :=
  let main_c_5 : IVec S_ 1 := constantI S_ 1 1#1
  let main_v17 : IVec S_ 1 := (fun x v => Host.reduce IntOp.andi x v reducesTo_S300000_S_d0 h_S_) main_v16 main_c_5
  let main_v18 : IVec S_ 1 := andi main_v13 main_v17
  let main_v19 : FVec F S300000 .f32 := Host.absf main_arg6
  let main_cst_6 : FVec F S_ .f32 := constant S_ .f32 0x7F800000#32
  let main_v20 : FVec F S300000 .f32 := broadcastInDim S300000 ![] bcast_S_S300000 main_cst_6
  let main_v21 : IVec S300000 1 := cmpf .olt main_v19 main_v20
  let main_c_7 : IVec S_ 1 := constantI S_ 1 1#1
  let main_v22 : IVec S_ 1 := (fun x v => Host.reduce IntOp.andi x v reducesTo_S300000_S_d0 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : FVec F S50000x128 .f32) (main_arg2 : FVec F S2x128 .f32) (main_arg3 : IVec S2x300000 32) (main_arg4 : FVec F S300000 .f32) (main_arg5 : IVec S2x300000 32) (main_arg6 : FVec F S300000 .f32) (main_arg7 : FVec F S128x128 .f32) (main_arg8 : FVec F S128x128 .f32) (main_arg9 : FVec F S128x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128 .f32 := Host.absf main_arg2
  let main_cst_2 : FVec F S_ .f32 := constant S_ .f32 0x7F800000#32
  let main_v10 : FVec F S2x128 .f32 := broadcastInDim S2x128 ![] bcast_S_S2x128 main_cst_2
  let main_v11 : IVec S2x128 1 := cmpf .olt main_v9 main_v10
  let main_c_3 : IVec S_ 1 := constantI S_ 1 1#1
  let main_v12 : IVec S_ 1 := (fun x v => Host.reduce IntOp.andi x v reducesTo_S2x128_S_d0_1 h_S_) main_v11 main_c_3
  let main_v13 : IVec S_ 1 := andi main_v8 main_v12
  let main_v14 : FVec F S300000 .f32 := Host.absf main_arg4
  let main_cst_4 : FVec F S_ .f32 := constant S_ .f32 0x7F800000#32
  let main_v15 : FVec F S300000 .f32 := broadcastInDim S300000 ![] bcast_S_S300000 main_cst_4
  let main_v16 : IVec S300000 1 := cmpf .olt main_v14 main_v15
  fn_part1 (F := F) main_arg6 main_arg7 main_arg8 main_arg9 main_v13 main_v16
-- ==== Kernel.lean ====
abbrev S100000x128 : Shape := ⟨2, ![100000, 128]⟩
abbrev S50000x128 : Shape := ⟨2, ![50000, 128]⟩
abbrev S2x128 : Shape := ⟨2, ![2, 128]⟩
abbrev S2x300000 : Shape := ⟨2, ![2, 300000]⟩
abbrev S300000 : Shape := ⟨1, ![300000]⟩
abbrev S128x128 : Shape := ⟨2, ![128, 128]⟩
abbrev S1x300000 : Shape := ⟨2, ![1, 300000]⟩
abbrev S600000 : Shape := ⟨1, ![600000]⟩
abbrev S_ : Shape := ⟨0, ![]⟩
abbrev S100000 : Shape := ⟨1, ![100000]⟩
abbrev S600000x1 : Shape := ⟨2, ![600000, 1]⟩
abbrev S50000 : Shape := ⟨1, ![50000]⟩
abbrev S300000x1 : Shape := ⟨2, ![300000, 1]⟩
abbrev S300000x128 : Shape := ⟨2, ![300000, 128]⟩
abbrev S1x128 : Shape := ⟨2, ![1, 128]⟩
abbrev S128 : Shape := ⟨1, ![128]⟩
abbrev S10000x128 : Shape := ⟨2, ![10000, 128]⟩

abbrev nBuf : Space → Nat
  | .hbm => 177
  | .vmem => 10
  | .smem => 0
  | _ => 0

abbrev hbmTy0_0 (i : Nat) : BufTy := match i % 128 with
  | 0 => ⟨S100000x128, .f32⟩
  | 1 => ⟨S50000x128, .f32⟩
  | 2 => ⟨S2x128, .f32⟩
  | 3 => ⟨S2x300000, .i32⟩
  | 4 => ⟨S300000, .f32⟩
  | 5 => ⟨S2x300000, .i32⟩
  | 6 => ⟨S300000, .f32⟩
  | 7 => ⟨S128x128, .f32⟩
  | 8 => ⟨S128x128, .f32⟩
  | 9 => ⟨S128x128, .f32⟩
  | 10 => ⟨S1x300000, .i32⟩
  | 11 => ⟨S300000, .i32⟩
  | 12 => ⟨S1x300000, .i32⟩
  | 13 => ⟨S300000, .i32⟩
  | 14 => ⟨S1x300000, .i32⟩
  | 15 => ⟨S300000, .i32⟩
  | 16 => ⟨S1x300000, .i32⟩
  | 17 => ⟨S300000, .i32⟩
  | 18 => ⟨S600000, .i32⟩
  | 19 => ⟨S600000, .i32⟩
  | 20 => ⟨S600000, .f32⟩
  | 21 => ⟨S_, .f32⟩
  | 22 => ⟨S100000, .f32⟩
  | 23 => ⟨S600000x1, .i32⟩
  | 24 => ⟨S100000, .f32⟩
  | 25 => ⟨S_, .f32⟩
  | 26 => ⟨S_, .f32⟩
  | 27 => ⟨S100000, .f32⟩
  | 28 => ⟨S100000, .f32⟩
  | 29 => ⟨S_, .f32⟩
  | 30 => ⟨S50000, .f32⟩
  | 31 => ⟨S600000x1, .i32⟩
  | 32 => ⟨S50000, .f32⟩
  | 33 => ⟨S_, .f32⟩
  | 34 => ⟨S_, .f32⟩
  | 35 => ⟨S50000, .f32⟩
  | 36 => ⟨S50000, .f32⟩
  | 37 => ⟨S100000, .f32⟩
  | 38 => ⟨S_, .f32⟩
  | 39 => ⟨S100000, .f32⟩
  | 40 => ⟨S100000, .f32⟩
  | 41 => ⟨S50000, .f32⟩
  | 42 => ⟨S_, .f32⟩
  | 43 => ⟨S50000, .f32⟩
  | 44 => ⟨S50000, .f32⟩
  | 45 => ⟨S_, .i32⟩
  | 46 => ⟨S300000, .i32⟩
  | 47 => ⟨S300000, .i1⟩
  | 48 => ⟨S_, .i32⟩
  | 49 => ⟨S300000, .i32⟩
  | 50 => ⟨S300000, .i32⟩
  | 51 => ⟨S300000, .i32⟩
  | 52 => ⟨S300000x1, .i32⟩
  | 53 => ⟨S300000, .f32⟩
  | 54 => ⟨S300000, .f32⟩
  | 55 => ⟨S_, .i32⟩
  | 56 => ⟨S300000, .i32⟩
  | 57 => ⟨S300000, .i1⟩
  | 58 => ⟨S_, .i32⟩
  | 59 => ⟨S300000, .i32⟩
  | 60 => ⟨S300000, .i32⟩
  | 61 => ⟨S300000, .i32⟩
  | 62 => ⟨S300000x1, .i32⟩
  | 63 => ⟨S300000, .f32⟩
  | 64 => ⟨S300000, .f32⟩
  | 65 => ⟨S_, .i32⟩
  | 66 => ⟨S300000, .i32⟩
  | 67 => ⟨S300000, .i1⟩
  | 68 => ⟨S_, .i32⟩
  | 69 => ⟨S300000, .i32⟩
  | 70 => ⟨S300000, .i32⟩
  | 71 => ⟨S300000, .i32⟩
  | 72 => ⟨S300000x1, .i32⟩
  | 73 => ⟨S300000, .f32⟩
  | 74 => ⟨S300000, .f32⟩
  | 75 => ⟨S_, .i32⟩
  | 76 => ⟨S300000, .i32⟩
  | 77 => ⟨S300000, .i1⟩
  | 78 => ⟨S_, .i32⟩
  | 79 => ⟨S300000, .i32⟩
  | 80 => ⟨S300000, .i32⟩
  | 81 => ⟨S300000, .i32⟩
  | 82 => ⟨S300000x1, .i32⟩
  | 83 => ⟨S300000, .f32⟩
  | 84 => ⟨S300000, .f32⟩
  | 85 => ⟨S_, .i32⟩
  | 86 => ⟨S300000, .i32⟩
  | 87 => ⟨S300000, .i1⟩
  | 88 => ⟨S_, .i32⟩
  | 89 => ⟨S300000, .i32⟩
  | 90 => ⟨S300000, .i32⟩
  | 91 => ⟨S300000, .i32⟩
  | 92 => ⟨S300000x1, .i32⟩
  | 93 => ⟨S300000x128, .f32⟩
  | 94 => ⟨S300000x1, .f32⟩
  | 95 => ⟨S300000x128, .f32⟩
  | 96 => ⟨S300000x128, .f32⟩
  | 97 => ⟨S_, .i32⟩
  | 98 => ⟨S300000, .i32⟩
  | 99 => ⟨S300000, .i1⟩
  | 100 => ⟨S_, .i32⟩
  | 101 => ⟨S300000, .i32⟩
  | 102 => ⟨S300000, .i32⟩
  | 103 => ⟨S300000, .i32⟩
  | 104 => ⟨S300000x1, .i32⟩
  | 105 => ⟨S300000x128, .f32⟩
  | 106 => ⟨S300000x1, .f32⟩
  | 107 => ⟨S300000x128, .f32⟩
  | 108 => ⟨S300000x128, .f32⟩
  | 109 => ⟨S_, .f32⟩
  | 110 => ⟨S100000x128, .f32⟩
  | 111 => ⟨S300000x1, .i32⟩
  | 112 => ⟨S100000x128, .f32⟩
  | 113 => ⟨S_, .f32⟩
  | 114 => ⟨S100000x128, .f32⟩
  | 115 => ⟨S300000x1, .i32⟩
  | 116 => ⟨S100000x128, .f32⟩
  | 117 => ⟨S1x128, .f32⟩
  | 118 => ⟨S128, .f32⟩
  | 119 => ⟨S1x128, .f32⟩
  | 120 => ⟨S100000x128, .f32⟩
  | 121 => ⟨S100000x128, .f32⟩
  | 122 => ⟨S1x128, .f32⟩
  | 123 => ⟨S128, .f32⟩
  | 124 => ⟨S1x128, .f32⟩
  | 125 => ⟨S100000x128, .f32⟩
  | 126 => ⟨S100000x128, .f32⟩
  | 127 => ⟨S100000x128, .f32⟩
  | _ => ⟨S100000x128, .f32⟩

abbrev hbmTy0_1 (i : Nat) : BufTy := match i % 128 with
  | 0 => ⟨S_, .i32⟩
  | 1 => ⟨S300000, .i32⟩
  | 2 => ⟨S300000, .i1⟩
  | 3 => ⟨S_, .i32⟩
  | 4 => ⟨S300000, .i32⟩
  | 5 => ⟨S300000, .i32⟩
  | 6 => ⟨S300000, .i32⟩
  | 7 => ⟨S300000x1, .i32⟩
  | 8 => ⟨S300000x128, .f32⟩
  | 9 => ⟨S300000x1, .f32⟩
  | 10 => ⟨S300000x128, .f32⟩
  | 11 => ⟨S300000x128, .f32⟩
  | 12 => ⟨S_, .i32⟩
  | 13 => ⟨S300000, .i32⟩
  | 14 => ⟨S300000, .i1⟩
  | 15 => ⟨S_, .i32⟩
  | 16 => ⟨S300000, .i32⟩
  | 17 => ⟨S300000, .i32⟩
  | 18 => ⟨S300000, .i32⟩
  | 19 => ⟨S300000x1, .i32⟩
  | 20 => ⟨S300000x128, .f32⟩
  | 21 => ⟨S300000x1, .f32⟩
  | 22 => ⟨S300000x128, .f32⟩
  | 23 => ⟨S300000x128, .f32⟩
  | 24 => ⟨S_, .f32⟩
  | 25 => ⟨S50000x128, .f32⟩
  | 26 => ⟨S300000x1, .i32⟩
  | 27 => ⟨S50000x128, .f32⟩
  | 28 => ⟨S_, .f32⟩
  | 29 => ⟨S50000x128, .f32⟩
  | 30 => ⟨S300000x1, .i32⟩
  | 31 => ⟨S50000x128, .f32⟩
  | 32 => ⟨S1x128, .f32⟩
  | 33 => ⟨S128, .f32⟩
  | 34 => ⟨S1x128, .f32⟩
  | 35 => ⟨S50000x128, .f32⟩
  | 36 => ⟨S50000x128, .f32⟩
  | 37 => ⟨S1x128, .f32⟩
  | 38 => ⟨S128, .f32⟩
  | 39 => ⟨S1x128, .f32⟩
  | 40 => ⟨S50000x128, .f32⟩
  | 41 => ⟨S50000x128, .f32⟩
  | 42 => ⟨S50000x128, .f32⟩
  | 43 => ⟨S128x128, .f32⟩
  | 44 => ⟨S128x128, .f32⟩
  | 45 => ⟨S100000x128, .f32⟩
  | 46 => ⟨S50000x128, .f32⟩
  | 47 => ⟨S128x128, .f32⟩
  | 48 => ⟨S2x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128x128, .f32⟩
  | .local _ .vmem, ⟨8, _⟩ => ⟨S10000x128, .f32⟩
  | .local _ .vmem, ⟨9, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_2 : Ref sig .tc := ⟨.hbm, 33, rfl⟩
abbrev main_call1_v0 : Ref sig .tc := ⟨.hbm, 34, rfl⟩
abbrev main_call1_v1 : Ref sig .tc := ⟨.hbm, 35, rfl⟩
abbrev main_v18 : Ref sig .tc := ⟨.hbm, 36, rfl⟩
abbrev main_v19 : Ref sig .tc := ⟨.hbm, 37, rfl⟩
abbrev main_cst_3 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_4 : Ref sig .tc := ⟨.hbm, 42, rfl⟩
abbrev main_v23 : Ref sig .tc := ⟨.hbm, 43, rfl⟩
abbrev main_v24 : Ref sig .tc := ⟨.hbm, 44, rfl⟩
abbrev main_c : Ref sig .tc := ⟨.hbm, 45, rfl⟩
abbrev main_v25 : Ref sig .tc := ⟨.hbm, 46, rfl⟩
abbrev main_v26 : Ref sig .tc := ⟨.hbm, 47, rfl⟩
abbrev main_c_5 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_c_7 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_c_10 : Ref sig .tc := ⟨.hbm, 75, rfl⟩
abbrev main_v49 : Ref sig .tc := ⟨.hbm, 76, rfl⟩
abbrev main_v50 : Ref sig .tc := ⟨.hbm, 77, rfl⟩
abbrev main_c_11 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_12 : Ref sig .tc := ⟨.hbm, 85, rfl⟩
abbrev main_v57 : Ref sig .tc := ⟨.hbm, 86, rfl⟩
abbrev main_v58 : Ref sig .tc := ⟨.hbm, 87, rfl⟩
abbrev main_c_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_17 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_c_18 : Ref sig .tc := ⟨.hbm, 128, rfl⟩
abbrev main_v94 : Ref sig .tc := ⟨.hbm, 129, rfl⟩
abbrev main_v95 : Ref sig .tc := ⟨.hbm, 130, rfl⟩
abbrev main_c_19 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_c_20 : Ref sig .tc := ⟨.hbm, 140, rfl⟩
abbrev main_v104 : Ref sig .tc := ⟨.hbm, 141, rfl⟩
abbrev main_v105 : Ref sig .tc := ⟨.hbm, 142, rfl⟩
abbrev main_c_21 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_cst_22 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_23 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x300000_S1x300000_0_0 : S2x300000.Slices ![0, 0] S1x300000
  shapeCasts_S1x300000_S300000 : S1x300000.ShapeCasts S300000
  slices_S2x300000_S1x300000_1_0 : S2x300000.Slices ![1, 0] S1x300000
  concatenates_S300000_S300000_S600000_d0 : Shape.Concatenates [S300000, S300000] S600000 0
  bcast_S_S100000 : S_.BroadcastsInDim S100000 (![] : Fin 0 → Fin S100000.rank)
  bcast_S600000_S600000x1_0 : S600000.BroadcastsInDim S600000x1 (![0] : Fin 1 → Fin S600000x1.rank)
  bcast_S_S50000 : S_.BroadcastsInDim S50000 (![] : Fin 0 → Fin S50000.rank)
  bcast_S_S300000 : S_.BroadcastsInDim S300000 (![] : Fin 0 → Fin S300000.rank)
  bcast_S300000_S300000x1_0 : S300000.BroadcastsInDim S300000x1 (![0] : Fin 1 → Fin S300000x1.rank)
  bcast_S300000x1_S300000x128_0_1 : S300000x1.BroadcastsInDim S300000x128 (![0, 1] : Fin 2 → Fin S300000x128.rank)
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128_S1x128_1_0 : S2x128.Slices ![1, 0] S1x128
  bcast_S_S50000x128 : S_.BroadcastsInDim S50000x128 (![] : Fin 0 → Fin S50000x128.rank)
  bcast_S1x128_S50000x128_0_1 : S1x128.BroadcastsInDim S50000x128 (![0, 1] : Fin 2 → Fin S50000x128.rank)
  transposes_S128x128_S128x128_1_0 : S128x128.Transposes [1, 0] S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  scatter_S100000_S600000x1_S600000_n_0_0_1_wf : ScatterDims.WF S100000 S600000x1 S600000 [] [0] [0] 1
  scatter_S50000_S600000x1_S600000_n_0_0_1_wf : ScatterDims.WF S50000 S600000x1 S600000 [] [0] [0] 1
  gather_S100000_S300000x1_S300000_n_0_n_n_0_1_1_wf : GatherDims.WF S100000 S300000x1 S300000 [] [0] [] [0] [] 1 ![1]
  gather_S50000_S300000x1_S300000_n_0_n_n_0_1_1_wf : GatherDims.WF S50000 S300000x1 S300000 [] [0] [] [0] [] 1 ![1]
  gather_S50000x128_S300000x1_S300000x128_1_0_n_n_0_1_1128_wf : GatherDims.WF S50000x128 S300000x1 S300000x128 [1] [0] [] [0] [] 1 ![1, 128]
  scatter_S100000x128_S300000x1_S300000x128_1_0_0_1_wf : ScatterDims.WF S100000x128 S300000x1 S300000x128 [1] [0] [0] 1
  gather_S100000x128_S300000x1_S300000x128_1_0_n_n_0_1_1128_wf : GatherDims.WF S100000x128 S300000x1 S300000x128 [1] [0] [] [0] [] 1 ![1, 128]
  scatter_S50000x128_S300000x1_S300000x128_1_0_0_1_wf : ScatterDims.WF S50000x128 S300000x1 S300000x128 [1] [0] [0] 1
  dot_S10000x128_S128x128_S10000x128_1_0_0_1_n_n_wf : DotDims.WF S10000x128 S128x128 S10000x128 [1] [0] [0] [1] [] []
  dot_S2x128_S128x128_S2x128_1_0_0_1_n_n_wf : DotDims.WF S2x128 S128x128 S2x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S50000x128.size a
  hwx1_2 : ∀ i : grid1.Coords, EltTy.bits .f32 = 32 ∨ (Rect.block (s := S50000x128) S10000x128.size (cc1_transform_2 i) (hinb1_2 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S100000_S300000x1_S300000_n_0_n_n_0_1_1 : GatherDims S100000 S300000x1 S300000 where
  offsetDims := []
  collapsedSliceDims := [0]
  operandBatchingDims := []
  startIndicesBatchingDims := []
  startIndexMap := [0]
  indexVectorDim := 1
  sliceSizes := ![1]
  wf := gather_S100000_S300000x1_S300000_n_0_n_n_0_1_1_wf
def gather_S50000_S300000x1_S300000_n_0_n_n_0_1_1 : GatherDims S50000 S300000x1 S300000 where
  offsetDims := []
  collapsedSliceDims := [0]
  operandBatchingDims := []
  startIndicesBatchingDims := []
  startIndexMap := [0]
  indexVectorDim := 1
  sliceSizes := ![1]
  wf := gather_S50000_S300000x1_S300000_n_0_n_n_0_1_1_wf
def gather_S50000x128_S300000x1_S300000x128_1_0_n_n_0_1_1128 : GatherDims S50000x128 S300000x1 S300000x128 where
  offsetDims := [1]
  collapsedSliceDims := [0]
  operandBatchingDims := []
  startIndicesBatchingDims := []
  startIndexMap := [0]
  indexVectorDim := 1
  sliceSizes := ![1, 128]
  wf := gather_S50000x128_S300000x1_S300000x128_1_0_n_n_0_1_1128_wf
def scatter_S100000x128_S300000x1_S300000x128_1_0_0_1 : ScatterDims S100000x128 S300000x1 S300000x128 where
  updateWindowDims := [1]
  insertedWindowDims := [0]
  scatterDimsToOperandDims := [0]
  indexVectorDim := 1
  wf := scatter_S100000x128_S300000x1_S300000x128_1_0_0_1_wf
def gather_S100000x128_S300000x1_S300000x128_1_0_n_n_0_1_1128 : GatherDims S100000x128 S300000x1 S300000x128 where
  offsetDims := [1]
  collapsedSliceDims := [0]
  operandBatchingDims := []
  startIndicesBatchingDims := []
  startIndexMap := [0]
  indexVectorDim := 1
  sliceSizes := ![1, 128]
  wf := gather_S100000x128_S300000x1_S300000x128_1_0_n_n_0_1_1128_wf
def scatter_S50000x128_S300000x1_S300000x128_1_0_0_1 : ScatterDims S50000x128 S300000x1 S300000x128 where
  updateWindowDims := [1]
  insertedWindowDims := [0]
  scatterDimsToOperandDims := [0]
  indexVectorDim := 1
  wf := scatter_S50000x128_S300000x1_S300000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf

abbrev win0_0 : Pipeline.Window sig grid0 :=
  Pipeline.Window.ofSpec (Memref.whole main_v93) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v131) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v133) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v130) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v132) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v134) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S50000x128 : Shape := ⟨2, ![50000, 128]⟩
abbrev S2x128 : Shape := ⟨2, ![2, 128]⟩
abbrev S2x300000 : Shape := ⟨2, ![2, 300000]⟩
abbrev S300000 : Shape := ⟨1, ![300000]⟩
abbrev S128x128 : Shape := ⟨2, ![128, 128]⟩
abbrev S2x600000 : Shape := ⟨2, ![2, 600000]⟩
abbrev S600000 : Shape := ⟨1, ![600000]⟩
abbrev S_ : Shape := ⟨0, ![]⟩
abbrev S1x600000 : Shape := ⟨2, ![1, 600000]⟩
abbrev S100000 : Shape := ⟨1, ![100000]⟩
abbrev S600000x1 : Shape := ⟨2, ![600000, 1]⟩
abbrev S50000 : Shape := ⟨1, ![50000]⟩
abbrev S600000x128 : Shape := ⟨2, ![600000, 128]⟩

abbrev nBuf : Space → Nat
  | .hbm => 126
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S50000x128, .f32⟩
  | .hbm, ⟨2, _⟩ => ⟨S2x128, .f32⟩
  | .hbm, ⟨3, _⟩ => ⟨S2x300000, .i32⟩
  | .hbm, ⟨4, _⟩ => ⟨S300000, .f32⟩
  | .hbm, ⟨5, _⟩ => ⟨S2x300000, .i32⟩
  | .hbm, ⟨6, _⟩ => ⟨S300000, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S2x600000, .i32⟩
  | .hbm, ⟨11, _⟩ => ⟨S600000, .f32⟩
  | .hbm, ⟨12, _⟩ => ⟨S_, .i32⟩
  | .hbm, ⟨13, _⟩ => ⟨S300000, .i32⟩
  | .hbm, ⟨14, _⟩ => ⟨S_, .i32⟩
  | .hbm, ⟨15, _⟩ => ⟨S300000, .i32⟩
  | .hbm, ⟨16, _⟩ => ⟨S600000, .i32⟩
  | .hbm, ⟨17, _⟩ => ⟨S1x600000, .i32⟩
  | .hbm, ⟨18, _⟩ => ⟨S600000, .i32⟩
  | .hbm, ⟨19, _⟩ => ⟨S1x600000, .i32⟩
  | .hbm, ⟨20, _⟩ => ⟨S600000, .i32⟩
  | .hbm, ⟨21, _⟩ => ⟨S_, .f32⟩
  | .hbm, ⟨22, _⟩ => ⟨S100000, .f32⟩
  | .hbm, ⟨23, _⟩ => ⟨S600000x1, .i32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S50000, .f32⟩
  | .hbm, ⟨31, _⟩ => ⟨S600000x1, .i32⟩
  | .hbm, ⟨32, _⟩ => ⟨S50000, .f32⟩
  | .hbm, ⟨33, _⟩ => ⟨S_, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S_, .i32⟩
  | .hbm, ⟨38, _⟩ => ⟨S600000, .i32⟩
  | .hbm, ⟨39, _⟩ => ⟨S600000, .i1⟩
  | .hbm, ⟨40, _⟩ => ⟨S_, .i32⟩
  | .hbm, ⟨41, _⟩ => ⟨S600000, .i32⟩
  | .hbm, ⟨42, _⟩ => ⟨S600000, .i32⟩
  | .hbm, ⟨43, _⟩ => ⟨S600000, .i32⟩
  | .hbm, ⟨44, _⟩ => ⟨S600000x1, .i32⟩
  | .hbm, ⟨45, _⟩ => ⟨S600000, .f32⟩
  | .hbm, ⟨46, _⟩ => ⟨S600000, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000, .f32⟩
  | .hbm, ⟨56, _⟩ => ⟨S600000, .f32⟩
  | .hbm, ⟨57, _⟩ => ⟨S600000, .f32⟩
  | .hbm, ⟨58, _⟩ => ⟨S_, .f32⟩
  | .hbm, ⟨59, _⟩ => ⟨S600000, .f32⟩
  | .hbm, ⟨60, _⟩ => ⟨S600000, .f32⟩
  | .hbm, ⟨61, _⟩ => ⟨S600000, .f32⟩
  | .hbm, ⟨62, _⟩ => ⟨S600000x1, .f32⟩
  | .hbm, ⟨63, _⟩ => ⟨S_, .i32⟩
  | .hbm, ⟨64, _⟩ => ⟨S600000, .i32⟩
  | .hbm, ⟨65, _⟩ => ⟨S600000, .i1⟩
  | .hbm, ⟨66, _⟩ => ⟨S_, .i32⟩
  | .hbm, ⟨67, _⟩ => ⟨S600000, .i32⟩
  | .hbm, ⟨68, _⟩ => ⟨S600000, .i32⟩
  | .hbm, ⟨69, _⟩ => ⟨S600000, .i32⟩
  | .hbm, ⟨70, _⟩ => ⟨S600000x1, .i32⟩
  | .hbm, ⟨71, _⟩ => ⟨S600000x128, .f32⟩
  | .hbm, ⟨72, _⟩ => ⟨S_, .i32⟩
  | .hbm, ⟨73, _⟩ => ⟨S600000, .i32⟩
  | .hbm, ⟨74, _⟩ => ⟨S600000, .i1⟩
  | .hbm, ⟨75, _⟩ => ⟨S_, .i32⟩
  | .hbm, ⟨76, _⟩ => ⟨S600000, .i32⟩
  | .hbm, ⟨77, _⟩ => ⟨S600000, .i32⟩
  | .hbm, ⟨78, _⟩ => ⟨S600000, .i32⟩
  | .hbm, ⟨79, _⟩ => ⟨S600000x1, .i32⟩
  | .hbm, ⟨80, _⟩ => ⟨S600000x128, .f32⟩
  | .hbm, ⟨81, _⟩ => ⟨S600000x128, .f32⟩
  | .hbm, ⟨82, _⟩ => ⟨S600000x128, .f32⟩
  | .hbm, ⟨83, _⟩ => ⟨S600000x128, .f32⟩
  | .hbm, ⟨84, _⟩ => ⟨S_, .i32⟩
  | .hbm, ⟨85, _⟩ => ⟨S600000, .i32⟩
  | .hbm, ⟨86, _⟩ => ⟨S600000, .i1⟩
  | .hbm, ⟨87, _⟩ => ⟨S_, .i32⟩
  | .hbm, ⟨88, _⟩ => ⟨S600000, .i32⟩
  | .hbm, ⟨89, _⟩ => ⟨S600000, .i32⟩
  | .hbm, ⟨90, _⟩ => ⟨S600000, .i32⟩
  | .hbm, ⟨91, _⟩ => ⟨S600000x1, .i32⟩
  | .hbm, ⟨92, _⟩ => ⟨S600000x128, .f32⟩
  | .hbm, ⟨93, _⟩ => ⟨S600000x128, .f32⟩
  | .hbm, ⟨94, _⟩ => ⟨S600000x128, .f32⟩
  | .hbm, ⟨95, _⟩ => ⟨S600000x128, .f32⟩
  | .hbm, ⟨96, _⟩ => ⟨S_, .f32⟩
  | .hbm, ⟨97, _⟩ => ⟨S100000x128, .f32⟩
  | .hbm, ⟨98, _⟩ => ⟨S600000x1, .i32⟩
  | .hbm, ⟨99, _⟩ => ⟨S100000x128, .f32⟩
  | .hbm, ⟨100, _⟩ => ⟨S_, .f32⟩
  | .hbm, ⟨101, _⟩ => ⟨S50000x128, .f32⟩
  | .hbm, ⟨102, _⟩ => ⟨S600000x1, .i32⟩
  | .hbm, ⟨103, _⟩ => ⟨S50000x128, .f32⟩
  | .hbm, ⟨104, _⟩ => ⟨S128x128, .f32⟩
  | .hbm, ⟨105, _⟩ => ⟨S100000x128, .f32⟩
  | .hbm, ⟨106, _⟩ => ⟨S100000x128, .f32⟩
  | .hbm, ⟨107, _⟩ => ⟨S100000x128, .f32⟩
  | .hbm, ⟨108, _⟩ => ⟨S_, .f32⟩
  | .hbm, ⟨109, _⟩ => ⟨S100000x128, .f32⟩
  | .hbm, ⟨110, _⟩ => ⟨S100000x128, .f32⟩
  | .hbm, ⟨111, _⟩ => ⟨S_, .f32⟩
  | .hbm, ⟨112, _⟩ => ⟨S100000x128, .f32⟩
  | .hbm, ⟨113, _⟩ => ⟨S100000x128, .f32⟩
  | .hbm, ⟨114, _⟩ => ⟨S128x128, .f32⟩
  | .hbm, ⟨115, _⟩ => ⟨S50000x128, .f32⟩
  | .hbm, ⟨116, _⟩ => ⟨S50000x128, .f32⟩
  | .hbm, ⟨117, _⟩ => ⟨S50000x128, .f32⟩
  | .hbm, ⟨118, _⟩ => ⟨S_, .f32⟩
  | .hbm, ⟨119, _⟩ => ⟨S50000x128, .f32⟩
  | .hbm, ⟨120, _⟩ => ⟨S50000x128, .f32⟩
  | .hbm, ⟨121, _⟩ => ⟨S_, .f32⟩
  | .hbm, ⟨122, _⟩ => ⟨S50000x128, .f32⟩
  | .hbm, ⟨123, _⟩ => ⟨S50000x128, .f32⟩
  | .hbm, ⟨124, _⟩ => ⟨S128x128, .f32⟩
  | .hbm, ⟨125, _⟩ => ⟨S2x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_c_0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_cst_3 : Ref sig .tc := ⟨.hbm, 33, rfl⟩
abbrev main_call1_v0 : Ref sig .tc := ⟨.hbm, 34, rfl⟩
abbrev main_call1_v1 : Ref sig .tc := ⟨.hbm, 35, rfl⟩
abbrev main_v16 : Ref sig .tc := ⟨.hbm, 36, rfl⟩
abbrev main_c_4 : Ref sig .tc := ⟨.hbm, 37, rfl⟩
abbrev main_v17 : Ref sig .tc := ⟨.hbm, 38, rfl⟩
abbrev main_v18 : Ref sig .tc := ⟨.hbm, 39, rfl⟩
abbrev main_c_5 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_cst_8 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_9 : Ref sig .tc := ⟨.hbm, 63, rfl⟩
abbrev main_v38 : Ref sig .tc := ⟨.hbm, 64, rfl⟩
abbrev main_v39 : Ref sig .tc := ⟨.hbm, 65, rfl⟩
abbrev main_c_10 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_11 : Ref sig .tc := ⟨.hbm, 72, rfl⟩
abbrev main_v45 : Ref sig .tc := ⟨.hbm, 73, rfl⟩
abbrev main_v46 : Ref sig .tc := ⟨.hbm, 74, rfl⟩
abbrev main_c_12 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_c_13 : Ref sig .tc := ⟨.hbm, 84, rfl⟩
abbrev main_v55 : Ref sig .tc := ⟨.hbm, 85, rfl⟩
abbrev main_v56 : Ref sig .tc := ⟨.hbm, 86, rfl⟩
abbrev main_c_14 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_15 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_cst_16 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_v75 : Ref sig .tc := ⟨.hbm, 109, rfl⟩
abbrev main_v76 : Ref sig .tc := ⟨.hbm, 110, rfl⟩
abbrev main_cst_18 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_19 : Ref sig .tc := ⟨.hbm, 118, rfl⟩
abbrev main_v83 : Ref sig .tc := ⟨.hbm, 119, rfl⟩
abbrev main_v84 : Ref sig .tc := ⟨.hbm, 120, rfl⟩
abbrev main_cst_20 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩

abbrev nD : Nat := 1
abbrev τ : Topo := Topo.v7x

variable {F : FTy → Type} [FloatOps F]

class Facts₀ : Prop where
  concatenates_S2x300000_S2x300000_S2x600000_d1 : Shape.Concatenates [S2x300000, S2x300000] S2x600000 1
  concatenates_S300000_S300000_S600000_d0 : Shape.Concatenates [S300000, S300000] S600000 0
  bcast_S_S300000 : S_.BroadcastsInDim S300000 (![] : Fin 0 → Fin S300000.rank)
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S100000 : S_.BroadcastsInDim S100000 (![] : Fin 0 → Fin S100000.rank)
  bcast_S600000_S600000x1_0 : S600000.BroadcastsInDim S600000x1 (![0] : Fin 1 → Fin S600000x1.rank)
  bcast_S_S50000 : S_.BroadcastsInDim S50000 (![] : Fin 0 → Fin S50000.rank)
  bcast_S_S600000 : S_.BroadcastsInDim S600000 (![] : Fin 0 → Fin S600000.rank)
  bcast_S600000x1_S600000x128_0_1 : S600000x1.BroadcastsInDim S600000x128 (![0, 1] : Fin 2 → Fin S600000x128.rank)
  bcast_S_S100000x128 : S_.BroadcastsInDim S100000x128 (![] : Fin 0 → Fin S100000x128.rank)
  bcast_S_S50000x128 : S_.BroadcastsInDim S50000x128 (![] : Fin 0 → Fin S50000x128.rank)
  transposes_S128x128_S128x128_1_0 : S128x128.Transposes [1, 0] S128x128
  scatter_S100000_S600000x1_S600000_n_0_0_1_wf : ScatterDims.WF S100000 S600000x1 S600000 [] [0] [0] 1
  scatter_S50000_S600000x1_S600000_n_0_0_1_wf : ScatterDims.WF S50000 S600000x1 S600000 [] [0] [0] 1
  gather_S100000_S600000x1_S600000_n_0_n_n_0_1_1_wf : GatherDims.WF S100000 S600000x1 S600000 [] [0] [] [0] [] 1 ![1]
  gather_S50000_S600000x1_S600000_n_0_n_n_0_1_1_wf : GatherDims.WF S50000 S600000x1 S600000 [] [0] [] [0] [] 1 ![1]
  gather_S2x128_S600000x1_S600000x128_1_0_n_n_0_1_1128_wf : GatherDims.WF S2x128 S600000x1 S600000x128 [1] [0] [] [0] [] 1 ![1, 128]
  gather_S50000x128_S600000x1_S600000x128_1_0_n_n_0_1_1128_wf : GatherDims.WF S50000x128 S600000x1 S600000x128 [1] [0] [] [0] [] 1 ![1, 128]
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  scatter_S50000x128_S600000x1_S600000x128_1_0_0_1_wf : ScatterDims.WF S50000x128 S600000x1 S600000x128 [1] [0] [0] 1
  dot_S100000x128_S128x128_S100000x128_1_0_0_1_n_n_wf : DotDims.WF S100000x128 S128x128 S100000x128 [1] [0] [0] [1] [] []
  dot_S50000x128_S128x128_S50000x128_1_0_0_1_n_n_wf : DotDims.WF S50000x128 S128x128 S50000x128 [1] [0] [0] [1] [] []
  dot_S2x128_S128x128_S2x128_1_0_0_1_n_n_wf : DotDims.WF S2x128 S128x128 S2x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S100000_S600000x1_S600000_n_0_n_n_0_1_1 : GatherDims S100000 S600000x1 S600000 where
  offsetDims := []
  collapsedSliceDims := [0]
  operandBatchingDims := []
  startIndicesBatchingDims := []
  startIndexMap := [0]
  indexVectorDim := 1
  sliceSizes := ![1]
  wf := gather_S100000_S600000x1_S600000_n_0_n_n_0_1_1_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S2x128_S600000x1_S600000x128_1_0_n_n_0_1_1128 : GatherDims S2x128 S600000x1 S600000x128 where
  offsetDims := [1]
  collapsedSliceDims := [0]
  operandBatchingDims := []
  startIndicesBatchingDims := []
  startIndexMap := [0]
  indexVectorDim := 1
  sliceSizes := ![1, 128]
  wf := gather_S2x128_S600000x1_S600000x128_1_0_n_n_0_1_1128_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S2x128_S128x128_S2x128_1_0_0_1_n_n : DotDims S2x128 S128x128 S2x128 where
  lhsContracting := [1]
  rhsContracting := [0]
  lhsNonContracting := [0]
  rhsNonContracting := [1]
  lhsBatch := []
  rhsBatch := []
  wf := dot_S2x128_S128x128_S2x128_1_0_0_1_n_n_wf

class Facts : Prop extends Facts₀ where

variable [Facts]
-- ==== Proof.KernelRun.lean ====
/- The kernel program's run with its three results named: every weakly fair execution ends with each result array at the
   last boundary's contents, and the two message arrays there are what their pipelines' write-backs leave. -/
import proofs.«150043_j45045617000625_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state each of the three
    result arrays holds the contents of the last boundary, the ten argument arrays what they were launched with. -/
theorem run_named : θ_run defs (onTc (τ := τ) (main (F := F))) ⟨m, fun _ => 0, ρ⟩ (fun r => ∀ c : Dev nD,
      r.2.mem ((c.tc : Thread nD τ).loc main_v133) = W8 m ρ c (Proc.devRef .tc main_v133)
      ∧ r.2.mem ((c.tc : Thread nD τ).loc main_v134) = W8 m ρ c (Proc.devRef .tc main_v134)
      ∧ r.2.mem ((c.tc : Thread nD τ).loc main_v136) = W8 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v133 (by decide)),
       h c _ (mem_uc main_v134 (by decide)),
       h c _ (mem_uc main_v136 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c)⟩)

/-- The first message array at the last boundary: the host operations after the calls do not write it, the second
    call's pipeline does not touch it, and the first call's pipeline leaves in it what its write-backs fold to. -/
theorem W8_main_v133 (c : Dev nD) : W8 m ρ c (Proc.devRef .tc main_v133) = (dat0 (V5 m ρ) c).arrAt 2 cfg0.N :=
  calc W8 m ρ c (Proc.devRef .tc main_v133)
    _ = W7 m ρ c (Proc.devRef .tc main_v133) := StableHlo.after_of_forall_not_mem (b := Proc.devRef .tc main_v133) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v133) := W7_of_ne m ρ c main_v133 (by decide)
    _ = (dat0 (V5 m ρ) c).arrAt 2 cfg0.N := W6_arr m ρ c 2

/-- The second message array at the last boundary: the host operations after the calls do not write it, and the second
    call's pipeline leaves in it what its write-backs fold to. -/
theorem W8_main_v134 (c : Dev nD) : W8 m ρ c (Proc.devRef .tc main_v134) = (dat1 (V6 m ρ) c).arrAt 2 cfg1.N :=
  calc W8 m ρ c (Proc.devRef .tc main_v134)
    _ = W7 m ρ c (Proc.devRef .tc main_v134) := StableHlo.after_of_forall_not_mem (b := Proc.devRef .tc main_v134) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat1 (V6 m ρ) c).arrAt 2 cfg1.N := W7_arr m ρ c 2

/-- The second call is entered with its two operands as the first call was entered with them: the first call's pipeline
    writes neither. -/
theorem V6_main_v130 (c : Dev nD) : V6 m ρ c main_v130 = W5 m ρ c (Proc.devRef .tc main_v130) := W6_of_ne m ρ c main_v130 (by decide)
theorem V6_main_v132 (c : Dev nD) : V6 m ρ c main_v132 = W5 m ρ c (Proc.devRef .tc main_v132) := W6_of_ne m ρ c main_v132 (by decide)

end Cert.KernelIdeal.RunValue

end
-- ==== Proof.MmSig.lean ====
/- The value both message updates compute, stated with no program in sight: the logistic function of a matrix product,
   entry by entry, over literal shapes. -/
import Idealize.ShloMosaic.PureOps.Ideal
import Idealize.ShloMosaic.Lib.ValueIdx

noncomputable section

open scoped BigOperators

namespace Cert.KernelIdeal.RunValue

open Idealize.ShloMosaic Idealize.ShloMosaic.ValueIdx

/-- The logistic function of the product of a 100000 × 128 matrix with a 128 × 128 matrix: entry (r, j) is
    σ(∑ₖ x(r, k) · w(k, j)), the sum and the products those of the extended reals. -/
def mmSigU (x : (⟨2, ![100000, 128]⟩ : Shape).Idx → EReal) (w : (⟨2, ![128, 128]⟩ : Shape).Idx → EReal) :
    (⟨2, ![100000, 128]⟩ : Shape).Idx → EReal :=
  fun i => Ideal.logistic (∑ k : Fin 128,
    x (ix2 (⟨(i 0).val, (i 0).isLt⟩ : Fin 100000) k) * w (ix2 k (⟨(i 1).val, (i 1).isLt⟩ : Fin 128)))

/-- Its entry at row `r`, column `j`. -/
theorem mmSigU_apply (x : (⟨2, ![100000, 128]⟩ : Shape).Idx → EReal) (w : (⟨2, ![128, 128]⟩ : Shape).Idx → EReal)
    (r : Fin 100000) (j : Fin 128) :
    mmSigU x w (ix2 r j) = Ideal.logistic (∑ k : Fin 128, x (ix2 r k) * w (ix2 k j)) := rfl

/-- The same for a 50000 × 128 matrix. -/
def mmSigI (x : (⟨2, ![50000, 128]⟩ : Shape).Idx → EReal) (w : (⟨2, ![128, 128]⟩ : Shape).Idx → EReal) :
    (⟨2, ![50000, 128]⟩ : Shape).Idx → EReal :=
  fun i => Ideal.logistic (∑ k : Fin 128,
    x (ix2 (⟨(i 0).val, (i 0).isLt⟩ : Fin 50000) k) * w (ix2 k (⟨(i 1).val, (i 1).isLt⟩ : Fin 128)))

/-- Its entry at row `r`, column `j`. -/
theorem mmSigI_apply (x : (⟨2, ![50000, 128]⟩ : Shape).Idx → EReal) (w : (⟨2, ![128, 128]⟩ : Shape).Idx → EReal)
    (r : Fin 50000) (j : Fin 128) :
    mmSigI x w (ix2 r j) = Ideal.logistic (∑ k : Fin 128, x (ix2 r k) * w (ix2 k j)) := rfl

end Cert.KernelIdeal.RunValue

end
-- ==== Proof.KernelMatmul.lean ====
/- What one grid step of the kernel stores, read at an entry: the logistic function of the block product. -/
import proofs.«150043_j45045617000625_2_alg».proof.Proof.Gen.KernelIdeal.Skeleton
import proofs.«150043_j45045617000625_2_alg».proof.Proof.MmSig
import Idealize.ShloMosaic.Lib.Pipeline.Value
import Idealize.ShloMosaic.Lib.ValueIdx
import Idealize.ShloMosaic.PureOps.Ideal.Laws

noncomputable section

open scoped BigOperators

namespace Cert.KernelIdeal.RunValue

open Cert.KernelIdeal Idealize.ShloMosaic Idealize.ShloMosaic.ValueIdx

/-! ## The operand indices of the block product: rows × contraction times contraction × columns -/

/-- The left operand is read at the output's row, -/
theorem lhs_row (i : S10000x128.Idx) (s : dot_S10000x128_S128x128_S10000x128_1_0_0_1_n_n.contr.Idx) :
    (dot_S10000x128_S128x128_S10000x128_1_0_0_1_n_n.lhsIdx i s 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
/-- and at the contraction position along its columns; -/
theorem lhs_col (i : S10000x128.Idx) (s : dot_S10000x128_S128x128_S10000x128_1_0_0_1_n_n.contr.Idx) :
    (dot_S10000x128_S128x128_S10000x128_1_0_0_1_n_n.lhsIdx i s 1).val = (s ⟨0, by decide⟩).val :=
  dot_S10000x128_S128x128_S10000x128_1_0_0_1_n_n.lhsIdx_val_of_single rfl i s
/-- the right operand at the contraction position along its rows, -/
theorem rhs_row (i : S10000x128.Idx) (s : dot_S10000x128_S128x128_S10000x128_1_0_0_1_n_n.contr.Idx) :
    (dot_S10000x128_S128x128_S10000x128_1_0_0_1_n_n.rhsIdx i s 0).val = (s ⟨0, by decide⟩).val :=
  dot_S10000x128_S128x128_S10000x128_1_0_0_1_n_n.rhsIdx_val_of_single rfl i s
/-- and at the output's column. -/
theorem rhs_col (i : S10000x128.Idx) (s : dot_S10000x128_S128x128_S10000x128_1_0_0_1_n_n.contr.Idx) :
    (dot_S10000x128_S128x128_S10000x128_1_0_0_1_n_n.rhsIdx i s 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The block product at an entry: the matrix unit's contraction of a 10000 × 128 block with the 128 × 128 weight into
    a zero accumulator is, at row `p` and column `q`, the sum over the one contracted axis of the products. -/
theorem blockProduct_apply (l : FVec Ideal S10000x128 .bf16) (r : FVec Ideal S128x128 .bf16) (p : Fin 10000) (q : Fin 128) :
    FloatOps.matmul dot_S10000x128_S128x128_S10000x128_1_0_0_1_n_n none l r (constant S10000x128 .f32 0x00000000#32) (ix2 p q)
      = ∑ k : Fin 128, l (ix2 p k) * r (ix2 k q) := by
  rw [Ideal.matmul_constant_zero_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 p q) ((contrEquiv1 dot_S10000x128_S128x128_S10000x128_1_0_0_1_n_n 128 rfl rfl).symm k) = ix2 p k := funext fun a => Fin.ext (by
    match a with
    | ⟨0, _⟩ => exact lhs_row _ _
    | ⟨1, _⟩ => exact (lhs_col _ _).trans hk)
  have er : dot_S10000x128_S128x128_S10000x128_1_0_0_1_n_n.rhsIdx (ix2 p q) ((contrEquiv1 dot_S10000x128_S128x128_S10000x128_1_0_0_1_n_n 128 rfl rfl).symm k) = ix2 k q := funext fun a => Fin.ext (by
    match a with
    | ⟨0, _⟩ => exact (rhs_row _ _).trans hk
    | ⟨1, _⟩ => exact rhs_col _ _)
  rw [el, er]

/-- The first call's stored value at row `p`, column `q` of its block: the changes of float format are the identity
    on the extended reals and the casts to the same shape change nothing, so it is the logistic function of the block
    product's entry. -/
theorem pay0_apply (x0 : Vec Ideal S10000x128 .f32) (x1 : Vec Ideal S128x128 .f32) (p : Fin 10000) (q : Fin 128) :
    Gen.k0_pay1 (F := Ideal) x0 x1 (ix2 p q) = Ideal.logistic (∑ k : Fin 128, x0 (ix2 p k) * x1 (ix2 k q)) := by
  unfold Gen.k0_pay1
  simp only [shapeCast_self]
  exact congrArg Ideal.logistic (blockProduct_apply _ _ p q)

/-- The second call's stored value, the same function of its blocks. -/
theorem pay1_apply (x0 : Vec Ideal S10000x128 .f32) (x1 : Vec Ideal S128x128 .f32) (p : Fin 10000) (q : Fin 128) :
    Gen.k1_pay1 (F := Ideal) x0 x1 (ix2 p q) = Ideal.logistic (∑ k : Fin 128, x0 (ix2 p k) * x1 (ix2 k q)) := by
  unfold Gen.k1_pay1
  simp only [shapeCast_self]
  exact congrArg Ideal.logistic (blockProduct_apply _ _ p q)

end Cert.KernelIdeal.RunValue

end
-- ==== Proof.KernelRegion0.lean ====
/- The first call's result array after its pipeline: the logistic function of the matrix product of its two operand arrays as the
   call finds them, whatever those are. -/
import proofs.«150043_j45045617000625_2_alg».proof.Proof.Gen.KernelIdeal.Frame
import proofs.«150043_j45045617000625_2_alg».proof.Proof.KernelMatmul
import Idealize.ShloMosaic.Lib.Pipeline.Value

noncomputable section

open scoped BigOperators

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)

-- the buffer contents the call is entered with: a parameter
variable (V : (c : Dev nD) → (b : Ref sig .tc) → Buf (Elt Ideal) ((c : Thread nD τ).loc b))

theorem zeroOffsets0 : (![0, 0] : Fin 2 → Nat) = fun _ => 0 := funext fun a => by fin_cases a <;> rfl

/-- The printed index maps over the 10 grid points: step `t` takes block row `t` of the row operand and of the result, and
    the one block of the weight. -/
theorem index_facts0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Step `t`'s block of the row operand is rows 10000·t … 10000·t + 9999 of the array, every column. -/
theorem rowBlock0_apply (c : Dev nD) (t : Fin cfg0.N) (p : Fin 10000) (k : Fin 128) (r : Fin 100000)
    (hr : r.val = 10000 * t.val + p.val) :
    (iblk0 V c 0 t : Vec Ideal S10000x128 .f32) (ix2 p k) = (V c main_v93 : S100000x128.Idx → EReal) (ix2 r k) := by
  obtain ⟨e0, e1, -⟩ := index_facts0 t
  show (V c main_v93 : S100000x128.Idx → EReal) (((cfg0.win 0).blk t).view.emb (ix2 p k)) = _
  refine congrArg (V c main_v93 : S100000x128.Idx → EReal) (funext fun a => Fin.ext ?_)
  match a with
  | ⟨0, _⟩ => show win0_0.index t (0 : Fin 2) * 10000 + 1 * p.val = r.val; rw [e0, hr]; omega
  | ⟨1, _⟩ => show win0_0.index t (1 : Fin 2) * 128 + 1 * k.val = k.val; rw [e1]; omega

/-- Every step's block of the weight is the whole weight. -/
theorem weightBlock0_apply (c : Dev nD) (t : Fin cfg0.N) (k q : Fin 128) :
    (iblk0 V c 1 t : Vec Ideal S128x128 .f32) (ix2 k q) = (V c main_v131 : S128x128.Idx → EReal) (ix2 k q) := by
  obtain ⟨-, -, e2, e3, -⟩ := index_facts0 t
  show (V c main_v131 : S128x128.Idx → EReal) (((cfg0.win 1).blk t).view.emb (ix2 k q)) = _
  refine congrArg (V c main_v131 : S128x128.Idx → EReal) (funext fun a => Fin.ext ?_)
  match a with
  | ⟨0, _⟩ => show win0_1.index t (0 : Fin 2) * 128 + 1 * k.val = k.val; rw [e2]; omega
  | ⟨1, _⟩ => show win0_1.index t (1 : Fin 2) * 128 + 1 * q.val = q.val; rw [e3]; omega

/-- What step `t` writes back is block row `t` of the logistic function of the product of the two operand arrays. -/
theorem flushed0_eq (c : Dev nD) (t : Fin cfg0.N) :
    (dat0 V c).flushed 2 t = ((cfg0.win 2).blk t).view.read (Elt Ideal) (mmSigU (V c main_v93) (V c main_v131)) := by
  show (cfg0.win 2).cut (grid0.coords t) ((dat0 V c).after 2 t) = _
  rw [after0_2]
  unfold out0_2
  rw [View.canon_unit_zero zeroOffsets0]
  simp only [View.ld_unit_zero (S := S10000x128) zeroOffsets0, View.ld_unit_zero (S := S128x128) zeroOffsets0]
  obtain ⟨-, -, -, -, e4, e5⟩ := index_facts0 t
  have hN : cfg0.N = 10 := N_0
  funext j
  obtain ⟨p, q, rfl⟩ : ∃ (p : Fin 10000) (q : Fin 128), j = ix2 p q := ⟨j 0, j 1, eq_ix2 j⟩
  have hr : 10000 * t.val + p.val < 100000 := by have := t.isLt; have := p.isLt; omega
  show Gen.k0_pay1 (F := Ideal) (iblk0 V c 0 t) (iblk0 V c 1 t) (ix2 p q)
    = mmSigU (V c main_v93) (V c main_v131) (((cfg0.win 2).blk t).view.emb (ix2 p q))
  have hemb : ((cfg0.win 2).blk t).view.emb (ix2 p q) = (ix2 (⟨10000 * t.val + p.val, hr⟩ : Fin 100000) q : S100000x128.Idx) := by
    funext a; apply Fin.ext
    match a with
    | ⟨0, _⟩ => show win0_2.index t (0 : Fin 2) * 10000 + 1 * p.val = 10000 * t.val + p.val; rw [e4]; omega
    | ⟨1, _⟩ => show win0_2.index t (1 : Fin 2) * 128 + 1 * q.val = q.val; rw [e5]; omega
  refine (pay0_apply (iblk0 V c 0 t) (iblk0 V c 1 t) p q).trans ?_
  refine Eq.trans ?_ (congrArg (mmSigU (V c main_v93) (V c main_v131)) hemb).symm
  refine Eq.trans ?_ (mmSigU_apply (V c main_v93) (V c main_v131) ⟨10000 * t.val + p.val, hr⟩ q).symm
  refine congrArg Ideal.logistic (Finset.sum_congr rfl fun k _ => ?_)
  exact congrArg₂ (fun a b : EReal => a * b) (rowBlock0_apply V c t p k ⟨10000 * t.val + p.val, hr⟩ rfl) (weightBlock0_apply V c t k q)

/-- An index of the result array is in step `t`'s block iff each coordinate is in the block's range on its axis. -/
theorem mem_blk0 (t : Fin cfg0.N) (i : S100000x128.Idx) :
    i ∈ ((cfg0.win 2).blk t).view.set ↔ ∀ a : Fin 2, win0_2.index t a * S10000x128.size a ≤ (i a).val ∧ (i a).val < win0_2.index t a * S10000x128.size a + S10000x128.size a := by
  show i ∈ ((View.whole main_v133).slice (win0_2.rect t)).set ↔ _
  rw [View.set_slice_whole, Rect.mem_set_unit]
  exact Iff.rfl

/-- The blocks tile the result array: row `r` is in the block of step `r / 10000`. -/
theorem covered0 (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, e4, e5⟩ := index_facts0 t
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; rw [e4, ht]; omega
  | ⟨1, _⟩ => show win0_2.index t (1 : Fin 2) * 128 ≤ (i 1).val ∧ (i 1).val < win0_2.index t (1 : Fin 2) * 128 + 128; rw [e5]; omega

/-- The result array after the pipeline's last write-back. -/
theorem final0 (c : Dev nD) : (dat0 V c).arrAt 2 cfg0.N = mmSigU (V c main_v93) (V c main_v131) :=
  (dat0 V c).arrAt_eq_of_cover 2 (mmSigU (V c main_v93) (V c main_v131)) (fun t _ => flushed0_eq V c t) covered0

end Cert.KernelIdeal.RunValue

end
-- ==== Proof.KernelRegion1.lean ====
/- The second call's result array after its pipeline: the logistic function of the matrix product of its two operand arrays as the
   call finds them, whatever those are. -/
import proofs.«150043_j45045617000625_2_alg».proof.Proof.Gen.KernelIdeal.Frame
import proofs.«150043_j45045617000625_2_alg».proof.Proof.KernelMatmul
import Idealize.ShloMosaic.Lib.Pipeline.Value

noncomputable section

open scoped BigOperators

namespace Cert.KernelIdeal.RunValue

open Cert.KernelIdeal Cert.KernelIdeal.Gen Idealize.ShloMosaic Idealize.ShloMosaic.TcCoe Idealize.SL.Sem Idealize.ShloMosaic.ValueIdx
open Idealize.ShloMosaic.Pipeline (Dat)

-- the buffer contents the call is entered with: a parameter
variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the 5 grid points: step `t` takes block row `t` of the row operand and of the result, and
    the one block of the weight. -/
theorem index_facts1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Step `t`'s block of the row operand is rows 10000·t … 10000·t + 9999 of the array, every column. -/
theorem rowBlock1_apply (c : Dev nD) (t : Fin cfg1.N) (p : Fin 10000) (k : Fin 128) (r : Fin 50000)
    (hr : r.val = 10000 * t.val + p.val) :
    (iblk1 V c 0 t : Vec Ideal S10000x128 .f32) (ix2 p k) = (V c main_v130 : S50000x128.Idx → EReal) (ix2 r k) := by
  obtain ⟨e0, e1, -⟩ := index_facts1 t
  show (V c main_v130 : S50000x128.Idx → EReal) (((cfg1.win 0).blk t).view.emb (ix2 p k)) = _
  refine congrArg (V c main_v130 : S50000x128.Idx → EReal) (funext fun a => Fin.ext ?_)
  match a with
  | ⟨0, _⟩ => show win1_0.index t (0 : Fin 2) * 10000 + 1 * p.val = r.val; rw [e0, hr]; omega
  | ⟨1, _⟩ => show win1_0.index t (1 : Fin 2) * 128 + 1 * k.val = k.val; rw [e1]; omega

/-- Every step's block of the weight is the whole weight. -/
theorem weightBlock1_apply (c : Dev nD) (t : Fin cfg1.N) (k q : Fin 128) :
    (iblk1 V c 1 t : Vec Ideal S128x128 .f32) (ix2 k q) = (V c main_v132 : S128x128.Idx → EReal) (ix2 k q) := by
  obtain ⟨-, -, e2, e3, -⟩ := index_facts1 t
  show (V c main_v132 : S128x128.Idx → EReal) (((cfg1.win 1).blk t).view.emb (ix2 k q)) = _
  refine congrArg (V c main_v132 : S128x128.Idx → EReal) (funext fun a => Fin.ext ?_)
  match a with
  | ⟨0, _⟩ => show win1_1.index t (0 : Fin 2) * 128 + 1 * k.val = k.val; rw [e2]; omega
  | ⟨1, _⟩ => show win1_1.index t (1 : Fin 2) * 128 + 1 * q.val = q.val; rw [e3]; omega

/-- What step `t` writes back is block row `t` of the logistic function of the product of the two operand arrays. -/
theorem flushed1_eq (c : Dev nD) (t : Fin cfg1.N) :
    (dat1 V c).flushed 2 t = ((cfg1.win 2).blk t).view.read (Elt Ideal) (mmSigI (V c main_v130) (V c main_v132)) := by
  show (cfg1.win 2).cut (grid1.coords t) ((dat1 V c).after 2 t) = _
  rw [after1_2]
  unfold out1_2
  rw [View.canon_unit_zero zeroOffsets1]
  simp only [View.ld_unit_zero (S := S10000x128) zeroOffsets1, View.ld_unit_zero (S := S128x128) zeroOffsets1]
  obtain ⟨-, -, -, -, e4, e5⟩ := index_facts1 t
  have hN : cfg1.N = 5 := N_1
  funext j
  obtain ⟨p, q, rfl⟩ : ∃ (p : Fin 10000) (q : Fin 128), j = ix2 p q := ⟨j 0, j 1, eq_ix2 j⟩
  have hr : 10000 * t.val + p.val < 50000 := by have := t.isLt; have := p.isLt; omega
  show Gen.k1_pay1 (F := Ideal) (iblk1 V c 0 t) (iblk1 V c 1 t) (ix2 p q)
    = mmSigI (V c main_v130) (V c main_v132) (((cfg1.win 2).blk t).view.emb (ix2 p q))
  have hemb : ((cfg1.win 2).blk t).view.emb (ix2 p q) = (ix2 (⟨10000 * t.val + p.val, hr⟩ : Fin 50000) q : S50000x128.Idx) := by
    funext a; apply Fin.ext
    match a with
    | ⟨0, _⟩ => show win1_2.index t (0 : Fin 2) * 10000 + 1 * p.val = 10000 * t.val + p.val; rw [e4]; omega
    | ⟨1, _⟩ => show win1_2.index t (1 : Fin 2) * 128 + 1 * q.val = q.val; rw [e5]; omega
  refine (pay1_apply (iblk1 V c 0 t) (iblk1 V c 1 t) p q).trans ?_
  refine Eq.trans ?_ (congrArg (mmSigI (V c main_v130) (V c main_v132)) hemb).symm
  refine Eq.trans ?_ (mmSigI_apply (V c main_v130) (V c main_v132) ⟨10000 * t.val + p.val, hr⟩ q).symm
  refine congrArg Ideal.logistic (Finset.sum_congr rfl fun k _ => ?_)
  exact congrArg₂ (fun a b : EReal => a * b) (rowBlock1_apply V c t p k ⟨10000 * t.val + p.val, hr⟩ rfl) (weightBlock1_apply V c t k q)

/-- An index of the result array is in step `t`'s block iff each coordinate is in the block's range on its axis. -/
theorem mem_blk1 (t : Fin cfg1.N) (i : S50000x128.Idx) :
    i ∈ ((cfg1.win 2).blk t).view.set ↔ ∀ a : Fin 2, win1_2.index t a * S10000x128.size a ≤ (i a).val ∧ (i a).val < win1_2.index t a * S10000x128.size a + S10000x128.size a := by
  show i ∈ ((View.whole main_v134).slice (win1_2.rect t)).set ↔ _
  rw [View.set_slice_whole, Rect.mem_set_unit]
  exact Iff.rfl

/-- The blocks tile the result array: row `r` is in the block of step `r / 10000`. -/
theorem covered1 (i : S50000x128.Idx) : ∃ t : Fin cfg1.N, (cfg1.win 2).flush t = true ∧ i ∈ ((cfg1.win 2).blk t).view.set := by
  have hi0 : (i 0).val < 50000 := (i 0).isLt
  have hi1 : (i 1).val < 128 := (i 1).isLt
  have hN : cfg1.N = 5 := N_1
  obtain ⟨t, ht⟩ : ∃ t : Fin cfg1.N, t.val = (i 0).val / 10000 := ⟨⟨(i 0).val / 10000, by rw [hN]; omega⟩, rfl⟩
  obtain ⟨-, -, -, -, e4, e5⟩ := index_facts1 t
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; rw [e4, ht]; omega
  | ⟨1, _⟩ => show win1_2.index t (1 : Fin 2) * 128 ≤ (i 1).val ∧ (i 1).val < win1_2.index t (1 : Fin 2) * 128 + 128; rw [e5]; omega

/-- The result array after the pipeline's last write-back. -/
theorem final1 (c : Dev nD) : (dat1 V c).arrAt 2 cfg1.N = mmSigI (V c main_v130) (V c main_v132) :=
  (dat1 V c).arrAt_eq_of_cover 2 (mmSigI (V c main_v130) (V c main_v132)) (fun t _ => flushed1_eq V c t) covered1

end Cert.KernelIdeal.RunValue

end
-- ==== Proof.KernelValue.lean ====
/- The kernel program's run, read: its two message arrays end at the logistic function of a matrix product of what the
   host operations before the calls leave, its third result at what the host operations after the calls leave. -/
import proofs.«150043_j45045617000625_2_alg».proof.Proof.KernelRun
import proofs.«150043_j45045617000625_2_alg».proof.Proof.KernelRegion0
import proofs.«150043_j45045617000625_2_alg».proof.Proof.KernelRegion1

noncomputable section

namespace Cert.KernelIdeal.RunValue

open Cert.KernelIdeal Cert.KernelIdeal.Gen Idealize.ShloMosaic Idealize.ShloMosaic.TcCoe Idealize.SL.Sem

variable (m : (ℓ : Loc nD τ sig) → Buf (Elt Ideal) ℓ) (ρ : Dev nD → PrngReg)

/-- The first message array at the last boundary is the logistic function of the product of the first call's operands
    as the call is entered. -/
theorem W8_main_v133_eq (c : Dev nD) :
    W8 m ρ c (Proc.devRef .tc main_v133) = mmSigU (W5 m ρ c (Proc.devRef .tc main_v93)) (W5 m ρ c (Proc.devRef .tc main_v131)) :=
  (W8_main_v133 m ρ c).trans (final0 (V5 m ρ) c)

/-- The second message array likewise, of the second call's operands, which the first call leaves as it found them. -/
theorem W8_main_v134_eq (c : Dev nD) :
    W8 m ρ c (Proc.devRef .tc main_v134) = mmSigI (W5 m ρ c (Proc.devRef .tc main_v130)) (W5 m ρ c (Proc.devRef .tc main_v132)) := by
  refine ((W8_main_v134 m ρ c).trans (final1 (V6 m ρ) c)).trans ?_
  rw [V6_main_v130, V6_main_v132]

/-- Every weakly fair execution of the program terminates without a fault, with the two message arrays at the logistic
    function of their matrix products, the third result at the last boundary's contents, the arguments unchanged. -/
theorem run : θ_run (defs (F := Ideal)) (onTc (τ := τ) (main (F := Ideal))) ⟨m, fun _ => 0, ρ⟩ (fun r => ∀ c : Dev nD,
      r.2.mem ((c.tc : Thread nD τ).loc main_v133) = mmSigU (Gen.W5 m ρ c (Proc.devRef .tc main_v93)) (Gen.W5 m ρ c (Proc.devRef .tc main_v131))
      ∧ r.2.mem ((c.tc : Thread nD τ).loc main_v134) = mmSigI (Gen.W5 m ρ c (Proc.devRef .tc main_v130)) (Gen.W5 m ρ c (Proc.devRef .tc main_v132))
      ∧ r.2.mem ((c.tc : Thread nD τ).loc main_v136) = Gen.W8 m ρ c (Proc.devRef .tc main_v136)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨(h c).1.trans (W8_main_v133_eq m ρ c), (h c).2.1.trans (W8_main_v134_eq m ρ c), (h c).2.2⟩)
    (run_named m ρ)

end Cert.KernelIdeal.RunValue

end
-- ==== Proof.KernelHost.lean ====
/-
  The kernel's host operations before its two launches, as functions of the argument arrays.

  From the two edge lists (each a pair of rows: user numbers and item numbers) and their weights the host part computes
  the clipped weighted degrees of users and items over both lists together, their reciprocal square roots, one scale per
  edge `(w · 1/√deg_u) · 1/√deg_i`, the scaled neighbour features, their sums per target node and per relation type, and
  finally the combination `r₀ · S₀ + r₁ · S₁` with the two rows of the relation table. These definitions spell that
  composition once, in the order the program performs it; the lemmas below say that the launch finds exactly these
  values in the buffers it reads.
-/
import proofs.«150043_j45045617000625_2_alg».proof.Proof.Gen.KernelIdeal.Frame
import Idealize.ShloMosaic.Lib.StableHlo.Run

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo

variable {F : FTy → Type} [FloatOps F]

/-- Integer and float arrays of a shape. -/
abbrev CI (F : FTy → Type) [FloatOps F] (s : Shape) := (⟨s, .i32⟩ : BufTy).Contents (Elt F)
abbrev CF (F : FTy → Type) [FloatOps F] (s : Shape) := (⟨s, .f32⟩ : BufTy).Contents (Elt F)

/-- The user numbers of an edge list: its first row. -/
def rowA (x : CI F S2x300000) : CI F S300000 :=
  shapeCast _ (extractStridedSlice S1x300000 ![0, 0] x slices_S2x300000_S1x300000_0_0) shapeCasts_S1x300000_S300000
/-- The item numbers of an edge list: its second row. -/
def rowB (x : CI F S2x300000) : CI F S300000 :=
  shapeCast _ (extractStridedSlice S1x300000 ![1, 0] x slices_S2x300000_S1x300000_1_0) shapeCasts_S1x300000_S300000
/-- Two edge lists one after the other. -/
def catI (a b : CI F S300000) : CI F S600000 :=
  concatenate S600000 0 [⟨S300000, a⟩, ⟨S300000, b⟩] concatenates_S300000_S300000_S600000_d0
def catF (a b : CF F S300000) : CF F S600000 :=
  concatenate S600000 0 [⟨S300000, a⟩, ⟨S300000, b⟩] concatenates_S300000_S300000_S600000_d0
/-- A vector of numbers as a column of start indices. -/
def col3 (a : CI F S300000) : CI F S300000x1 := broadcastInDim S300000x1 ![0] bcast_S300000_S300000x1_0 a
def col6 (a : CI F S600000) : CI F S600000x1 := broadcastInDim S600000x1 ![0] bcast_S600000_S600000x1_0 a

/-- The clipped weighted degree of every user over all edges. -/
def degU (iu : CI F S600000) (w : CF F S600000) : CF F S100000 :=
  maximumf (broadcastInDim S100000 ![] bcast_S_S100000 (id (constant S_ .f32 0x3F800000#32)))
    (Host.scatterAdd scatter_S100000_S600000x1_S600000_n_0_0_1
      (broadcastInDim S100000 ![] bcast_S_S100000 (constant S_ .f32 0x00000000#32)) (col6 iu) w)
/-- The clipped weighted degree of every item over all edges. -/
def degI (ii : CI F S600000) (w : CF F S600000) : CF F S50000 :=
  maximumf (broadcastInDim S50000 ![] bcast_S_S50000 (id (constant S_ .f32 0x3F800000#32)))
    (Host.scatterAdd scatter_S50000_S600000x1_S600000_n_0_0_1
      (broadcastInDim S50000 ![] bcast_S_S50000 (constant S_ .f32 0x00000000#32)) (col6 ii) w)
/-- One over the square root, entry by entry. -/
def invU (d : CF F S100000) : CF F S100000 :=
  Host.divf (broadcastInDim S100000 ![] bcast_S_S100000 (constant S_ .f32 0x3F800000#32)) (Host.sqrt d)
def invI (d : CF F S50000) : CF F S50000 :=
  Host.divf (broadcastInDim S50000 ![] bcast_S_S50000 (constant S_ .f32 0x3F800000#32)) (Host.sqrt d)
/-- A negative number counts from the end of an axis of extent `n`. -/
def wrap (n : BitVec 32) (a : CI F S300000) : CI F S300000 :=
  select (cmpi .slt a (broadcastInDim S300000 ![] bcast_S_S300000 (constantI S_ 32 0#32)))
    (addi a (broadcastInDim S300000 ![] bcast_S_S300000 (constantI S_ 32 n))) a
/-- The scale of every edge of one list. -/
def scl (w : CF F S300000) (du : CF F S100000) (di : CF F S50000) (ru ri : CI F S300000) : CF F S300000 :=
  mulf (mulf w (Host.gather gather_S100000_S300000x1_S300000_n_0_n_n_0_1_1 du (col3 (wrap 100000#32 ru))))
    (Host.gather gather_S50000_S300000x1_S300000_n_0_n_n_0_1_1 di (col3 (wrap 50000#32 ri)))
/-- One scale per edge, repeated along the feature axis. -/
def spread (s : CF F S300000) : CF F S300000x128 :=
  broadcastInDim S300000x128 ![0, 1] bcast_S300000x1_S300000x128_0_1 (broadcastInDim S300000x1 ![0] bcast_S300000_S300000x1_0 s)
/-- The scaled features of the item at the far end of every edge. -/
def phiU (x1 : CF F S50000x128) (ri : CI F S300000) (s : CF F S300000) : CF F S300000x128 :=
  mulf (Host.gather gather_S50000x128_S300000x1_S300000x128_1_0_n_n_0_1_1128 x1 (col3 (wrap 50000#32 ri))) (spread s)
/-- The scaled features of the user at the far end of every edge. -/
def phiI (x0 : CF F S100000x128) (ru : CI F S300000) (s : CF F S300000) : CF F S300000x128 :=
  mulf (Host.gather gather_S100000x128_S300000x1_S300000x128_1_0_n_n_0_1_1128 x0 (col3 (wrap 100000#32 ru))) (spread s)
/-- Messages summed per user. -/
def msgU (ru : CI F S300000) (phi : CF F S300000x128) : CF F S100000x128 :=
  Host.scatterAdd scatter_S100000x128_S300000x1_S300000x128_1_0_0_1
    (broadcastInDim S100000x128 ![] bcast_S_S100000x128 (constant S_ .f32 0x00000000#32)) (col3 ru) phi
/-- Messages summed per item. -/
def msgI (ri : CI F S300000) (phi : CF F S300000x128) : CF F S50000x128 :=
  Host.scatterAdd scatter_S50000x128_S300000x1_S300000x128_1_0_0_1
    (broadcastInDim S50000x128 ![] bcast_S_S50000x128 (constant S_ .f32 0x00000000#32)) (col3 ri) phi
/-- A row of the relation table as a vector. -/
def relA (x2 : CF F S2x128) : CF F S128 :=
  shapeCast _ (extractStridedSlice S1x128 ![0, 0] x2 slices_S2x128_S1x128_0_0) shapeCasts_S1x128_S128
def relB (x2 : CF F S2x128) : CF F S128 :=
  shapeCast _ (extractStridedSlice S1x128 ![1, 0] x2 slices_S2x128_S1x128_1_0) shapeCasts_S1x128_S128
/-- … repeated along the node axis. -/
def overU (v : CF F S128) : CF F S100000x128 :=
  broadcastInDim S100000x128 ![0, 1] bcast_S1x128_S100000x128_0_1 (broadcastInDim S1x128 ![1] bcast_S128_S1x128_1 v)
def overI (v : CF F S128) : CF F S50000x128 :=
  broadcastInDim S50000x128 ![0, 1] bcast_S1x128_S50000x128_0_1 (broadcastInDim S1x128 ![1] bcast_S128_S1x128_1 v)

/-- The two scales' common data: both lists' user and item numbers, the degrees' reciprocal roots. -/
def sclT0 (x3 x5 : CI F S2x300000) (x4 x6 : CF F S300000) : CF F S300000 :=
  scl x4 (invU (degU (catI (rowA x3) (rowA x5)) (catF x4 x6))) (invI (degI (catI (rowB x3) (rowB x5)) (catF x4 x6))) (rowA x3) (rowB x3)
def sclT1 (x3 x5 : CI F S2x300000) (x4 x6 : CF F S300000) : CF F S300000 :=
  scl x6 (invU (degU (catI (rowA x3) (rowA x5)) (catF x4 x6))) (invI (degI (catI (rowB x3) (rowB x5)) (catF x4 x6))) (rowA x5) (rowB x5)

/-- The users' aggregated messages: what the first launch multiplies by the users' weight matrix. -/
def newU (x1 : CF F S50000x128) (x2 : CF F S2x128) (x3 : CI F S2x300000) (x4 : CF F S300000) (x5 : CI F S2x300000)
    (x6 : CF F S300000) : CF F S100000x128 :=
  addf (mulf (overU (relA x2)) (msgU (rowA x3) (phiU x1 (rowB x3) (sclT0 x3 x5 x4 x6))))
    (mulf (overU (relB x2)) (msgU (rowA x5) (phiU x1 (rowB x5) (sclT1 x3 x5 x4 x6))))
/-- The items' aggregated messages: what the second launch multiplies by the items' weight matrix. -/
def newI (x0 : CF F S100000x128) (x2 : CF F S2x128) (x3 : CI F S2x300000) (x4 : CF F S300000) (x5 : CI F S2x300000)
    (x6 : CF F S300000) : CF F S50000x128 :=
  addf (mulf (overI (relA x2)) (msgI (rowB x3) (phiI x0 (rowA x3) (sclT0 x3 x5 x4 x6))))
    (mulf (overI (relB x2)) (msgI (rowB x5) (phiI x0 (rowA x5) (sclT1 x3 x5 x4 x6))))

variable (m : (ℓ : Loc nD τ sig) → Buf (Elt F) ℓ) (ρ : Dev nD → PrngReg)

set_option maxHeartbeats 40000000 in
/-- Before the launches every buffer an operation wrote holds that operation's value: the first launch's left operand
    is the users' aggregated messages. -/
theorem W5_v93 (c : Dev nD) : W5 m ρ c (Proc.devRef .tc main_v93)
    = newU (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) := by
  dsimp only [W5, W4, W3, W2, W1, W0]
  simp only [hostOps0, hostOps0_1, hostOps0_2, hostOps0_3, hostOps0_4]
  after_results_simp <;> rfl

set_option maxHeartbeats 40000000 in
/-- The second launch's left operand is the items' aggregated messages. -/
theorem W5_v130 (c : Dev nD) : W5 m ρ c (Proc.devRef .tc main_v130)
    = newI (m ((c : Thread nD τ).loc main_arg0)) (m ((c : Thread nD τ).loc main_arg2)) (m ((c : Thread nD τ).loc main_arg3))
        (m ((c : Thread nD τ).loc main_arg4)) (m ((c : Thread nD τ).loc main_arg5)) (m ((c : Thread nD τ).loc main_arg6)) := by
  dsimp only [W5, W4, W3, W2, W1, W0]
  simp only [hostOps0, hostOps0_1, hostOps0_2, hostOps0_3, hostOps0_4]
  after_results_simp <;> rfl

set_option maxHeartbeats 40000000 in
/-- The launches' right operands are the two weight matrices transposed. -/
theorem W5_v131 (c : Dev nD) : W5 m ρ c (Proc.devRef .tc main_v131)
    = transpose S128x128 [1, 0] (m ((c : Thread nD τ).loc main_arg7)) transposes_S128x128_S128x128_1_0 := by
  dsimp only [W5, W4, W3, W2, W1, W0]
  simp only [hostOps0, hostOps0_1, hostOps0_2, hostOps0_3, hostOps0_4]
  after_results_simp <;> rfl

set_option maxHeartbeats 40000000 in
theorem W5_v132 (c : Dev nD) : W5 m ρ c (Proc.devRef .tc main_v132)
    = transpose S128x128 [1, 0] (m ((c : Thread nD τ).loc main_arg8)) transposes_S128x128_S128x128_1_0 := by
  dsimp only [W5, W4, W3, W2, W1, W0]
  simp only [hostOps0, hostOps0_1, hostOps0_2, hostOps0_3, hostOps0_4]
  after_results_simp <;> rfl

set_option maxHeartbeats 40000000 in
/-- After the launches the relation table is multiplied by the third weight matrix transposed; neither launch and no
    earlier operation writes the two arguments it reads. -/
theorem W8_v136 (c : Dev nD) : W8 m ρ c (Proc.devRef .tc main_v136)
    = Host.dotGeneral dot_S2x128_S128x128_S2x128_1_0_0_1_n_n none (m ((c : Thread nD τ).loc main_arg2))
        (transpose S128x128 [1, 0] (m ((c : Thread nD τ).loc main_arg9)) transposes_S128x128_S128x128_1_0) := by
  have e2 : W7 m ρ c (Proc.devRef .tc main_arg2) = m ((c : Thread nD τ).loc main_arg2) := by
    rw [W7_of_ne m ρ c main_arg2 (by decide), W6_of_ne m ρ c main_arg2 (by decide)]
    dsimp only [W5, W4, W3, W2, W1, W0]
    simp only [hostOps0, hostOps0_1, hostOps0_2, hostOps0_3, hostOps0_4]
    after_results_simp <;> rfl
  have e9 : W7 m ρ c (Proc.devRef .tc main_arg9) = m ((c : Thread nD τ).loc main_arg9) := by
    rw [W7_of_ne m ρ c main_arg9 (by decide), W6_of_ne m ρ c main_arg9 (by decide)]
    dsimp only [W5, W4, W3, W2, W1, W0]
    simp only [hostOps0, hostOps0_1, hostOps0_2, hostOps0_3, hostOps0_4]
    after_results_simp <;> rfl
  have e : W8 m ρ c (Proc.devRef .tc main_v136)
      = Host.dotGeneral dot_S2x128_S128x128_S2x128_1_0_0_1_n_n none (W7 m ρ c (Proc.devRef .tc main_arg2))
        (transpose S128x128 [1, 0] (W7 m ρ c (Proc.devRef .tc main_arg9)) transposes_S128x128_S128x128_1_0) := by
    dsimp only [W8]
    simp only [hostOps2]
    after_results_simp <;> rfl
  rw [e, e2, e9]

end Cert.KernelIdeal.HostValue

end
-- ==== Proof.PreFinite.lean ====
/-
  What the precondition says, element by element: every float input is a real number.

  The precondition compares the absolute value of every element of every float argument with +∞ and takes the
  conjunction of all the comparisons. On the extended reals `max x (-x) < ⊤` fails exactly at the two infinities, so when
  the conjunction holds every element is a real number.
-/
import proofs.«150043_j45045617000625_2_alg».proof.Pre_finite_inputs
import proofs.«150043_j45045617000625_2_alg».proof.Proof.Gen.Pre_finite_inputs
import Idealize.ShloMosaic.PureOps.Ideal
import Idealize.ShloMosaic.Lib.ReduceAll
import Idealize.ShloMosaic.Lib.ValueIdx

noncomputable section

namespace Cert.PreFinite

open Idealize.ShloMosaic Idealize.ShloMosaic.ValueIdx Cert.Pre_finite_inputs

/-- An extended real whose absolute value is below +∞ is a real number. -/
theorem real_of_lt_inf (x : EReal)
    (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x using EReal.rec with
  | bot => simp [Ideal.cmp] at h
  | top => simp [Ideal.cmp] at h
  | coe r => exact ⟨r, rfl⟩

instance : Subsingleton S_.Idx := ⟨fun a b => funext fun d => d.elim0⟩

/-- One argument's conjunct: all its comparisons hold, so each element is real. -/
theorem finite_of_all {s : Shape} {axes : List (Fin s.rank)} (a : FVec Ideal s .f32) (hb : S_.BroadcastsInDim s ![])
    (hr : s.ReducesTo axes S_) (hu : 0 < S_.numel) (j : S_.Idx)
    (e : Host.reduce IntOp.andi (cmpf .olt (Host.absf a) (broadcastInDim s ![] hb (constant (F := Ideal) S_ .f32 0x7F800000#32)))
      (constantI S_ 1 1#1) hr hu j = 1#1) (i : s.Idx) : ∃ r : ℝ, a i = (r : EReal) :=
  real_of_lt_inf (a i) (Host.reduce_andi_all _ _ hr hu j e i)

/-- The precondition makes every float argument real-valued. -/
theorem finite (a0 : FVec Ideal S100000x128 .f32) (a1 : FVec Ideal S50000x128 .f32) (a2 : FVec Ideal S2x128 .f32)
    (a3 : IVec S2x300000 32) (a4 : FVec Ideal S300000 .f32) (a5 : IVec S2x300000 32) (a6 : FVec Ideal S300000 .f32)
    (a7 a8 a9 : FVec Ideal S128x128 .f32)
    (h : fn (F := Ideal) a0 a1 a2 a3 a4 a5 a6 a7 a8 a9 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a4 i = (r : EReal)) ∧ (∀ i, ∃ r : ℝ, a6 i = (r : EReal)) := by
  have h0 := congrFun h ix0
  dsimp only [fn, fn_part1, fn_part2] at h0
  obtain ⟨h0, -⟩ := IntOp.andi_eq_one.1 h0
  obtain ⟨h0, -⟩ := IntOp.andi_eq_one.1 h0
  obtain ⟨h0, -⟩ := IntOp.andi_eq_one.1 h0
  obtain ⟨h0, e6⟩ := IntOp.andi_eq_one.1 h0
  obtain ⟨h0, e4⟩ := IntOp.andi_eq_one.1 h0
  obtain ⟨h0, e2⟩ := IntOp.andi_eq_one.1 h0
  obtain ⟨e0, e1⟩ := IntOp.andi_eq_one.1 h0
  exact ⟨finite_of_all a0 _ _ _ _ e0, finite_of_all a1 _ _ _ _ e1, finite_of_all a2 _ _ _ _ e2,
    finite_of_all a4 _ _ _ _ e4, finite_of_all a6 _ _ _ _ e6⟩

end Cert.PreFinite

end
-- ==== Proof.RefSigmoid.lean ====
/-
  The reference's last stage: the logistic function of a matrix product.

  The reference multiplies the aggregated messages by the transposed weight matrix and applies `1 / (1 + e^(-y))`
  entry by entry. On the extended reals that expression is the logistic function, and the product's entry `(u, d)` is the
  sum over `k` of the message at `(u, k)` times the transposed weight at `(k, d)`.
-/
import proofs.«150043_j45045617000625_2_alg».proof.Proof.Gen.ReferenceIdeal.Read
import proofs.«150043_j45045617000625_2_alg».proof.Proof.MmSig
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
  Cert.KernelIdeal.RunValue

/-- The users' result is the logistic function of the users' messages times the transposed weights. -/
theorem v78_eq (x1 : (⟨S50000x128, .f32⟩ : BufTy).Contents (Elt Ideal)) (x2 : (⟨S2x128, .f32⟩ : BufTy).Contents (Elt Ideal))
    (x3 : (⟨S2x300000, .i32⟩ : BufTy).Contents (Elt Ideal)) (x4 : (⟨S300000, .f32⟩ : BufTy).Contents (Elt Ideal))
    (x5 : (⟨S2x300000, .i32⟩ : BufTy).Contents (Elt Ideal)) (x6 : (⟨S300000, .f32⟩ : BufTy).Contents (Elt Ideal))
    (x7 : (⟨S128x128, .f32⟩ : BufTy).Contents (Elt Ideal)) :
    val_main_v78 (F := Ideal) x1 x2 x3 x4 x5 x6 x7
      = mmSigU (val_main_v67 (F := Ideal) x1 x2 x3 x4 x5 x6) (val_main_v71 (F := Ideal) x7) := by
  funext i
  obtain ⟨u, d, rfl⟩ : ∃ (u : Fin 100000) (d : Fin 128), i = ix2 u d := ⟨i 0, i 1, eq_ix2 i⟩
  rw [mmSigU_apply]
  rw [val_main_v78_apply, val_main_v77_apply, val_main_cst_18_apply, val_main_v76_apply, val_main_v75_apply,
    val_main_cst_17_apply, val_main_v74_apply, val_main_v73_apply, val_main_v72_apply]
  simp only [Ideal.hostDivf_def, Ideal.addf_def, Ideal.hostUnary_exp_def, Ideal.hostNegf_def, Ideal.negf_def, Ideal.ofBits_def,
    Ideal.ofBits_one_f32]
  have hl : ∀ k : Fin 128, lidx_main_v72 (ix2 u d) k = ix2 u k := fun k => funext fun a => Fin.ext (by
    match a with
    | ⟨0, _⟩ => rfl
    | ⟨1, _⟩ => rfl)
  have hr : ∀ k : Fin 128, ridx_main_v72 (ix2 u d) k = ix2 k d := fun k => funext fun a => Fin.ext (by
    match a with
    | ⟨0, _⟩ => rfl
    | ⟨1, _⟩ => rfl)
  simp only [hl, hr]
  rfl

/-- The items' result is the logistic function of the items' messages times the transposed weights. -/
theorem v86_eq (x0 : (⟨S100000x128, .f32⟩ : BufTy).Contents (Elt Ideal)) (x2 : (⟨S2x128, .f32⟩ : BufTy).Contents (Elt Ideal))
    (x3 : (⟨S2x300000, .i32⟩ : BufTy).Contents (Elt Ideal)) (x4 : (⟨S300000, .f32⟩ : BufTy).Contents (Elt Ideal))
    (x5 : (⟨S2x300000, .i32⟩ : BufTy).Contents (Elt Ideal)) (x6 : (⟨S300000, .f32⟩ : BufTy).Contents (Elt Ideal))
    (x8 : (⟨S128x128, .f32⟩ : BufTy).Contents (Elt Ideal)) :
    val_main_v86 (F := Ideal) x0 x2 x3 x4 x5 x6 x8
      = mmSigI (val_main_v70 (F := Ideal) x0 x2 x3 x4 x5 x6) (val_main_v79 (F := Ideal) x8) := by
  funext i
  obtain ⟨u, d, rfl⟩ : ∃ (u : Fin 50000) (d : Fin 128), i = ix2 u d := ⟨i 0, i 1, eq_ix2 i⟩
  rw [mmSigI_apply]
  rw [val_main_v86_apply, val_main_v85_apply, val_main_cst_20_apply, val_main_v84_apply, val_main_v83_apply,
    val_main_cst_19_apply, val_main_v82_apply, val_main_v81_apply, val_main_v80_apply]
  simp only [Ideal.hostDivf_def, Ideal.addf_def, Ideal.hostUnary_exp_def, Ideal.hostNegf_def, Ideal.negf_def, Ideal.ofBits_def,
    Ideal.ofBits_one_f32]
  have hl : ∀ k : Fin 128, lidx_main_v80 (ix2 u d) k = ix2 u k := fun k => funext fun a => Fin.ext (by
    match a with
    | ⟨0, _⟩ => rfl
    | ⟨1, _⟩ => rfl)
  have hr : ∀ k : Fin 128, ridx_main_v80 (ix2 u d) k = ix2 k d := fun k => funext fun a => Fin.ext (by
    match a with
    | ⟨0, _⟩ => rfl
    | ⟨1, _⟩ => rfl)
  simp only [hl, hr]
  rfl

end Cert.ReferenceIdeal.RefValue

end
-- ==== Proof.Layout.lean ====
/-
  Layout operations of the two host programs, read at an index written by coordinates.

  A vector made a column of start indices, a column repeated along a feature axis, a row of a two-row table taken as a
  vector, a vector repeated along a node axis, and two lists joined end to end: each moves elements without changing
  them, and each is read here at `(e)`, `(e, d)` … as the operand at the matching coordinates.
-/
import Idealize.ShloMosaic.Lib.Pipeline.Value
import Idealize.ShloMosaic.Lib.ValueIdx
import Idealize.ShloMosaic.Lib.ValueLayout

noncomputable section

namespace Cert.Layout

open Idealize.ShloMosaic Idealize.ShloMosaic.ValueIdx

variable {α : Type}

/-- A vector `[n]` made a column `[n, 1]` reads, at `(e, 0)`, the vector's entry `e`. -/
theorem col_apply {n : ℕ} (h : (⟨1, ![n]⟩ : Shape).BroadcastsInDim ⟨2, ![n, 1]⟩ ![0])
    (x : (⟨1, ![n]⟩ : Shape).Idx → α) (e : Fin n) (u : Fin 1) :
    broadcastInDim ⟨2, ![n, 1]⟩ ![0] h x (ix2 e u) = x (ix1 e) := by
  refine broadcastInDim_apply _ h x (ix2 e u) (ix1 e) fun a => ?_
  match a with
  | ⟨0, _⟩ =>
    show e.val = if n = 1 then 0 else e.val
    split
    · have := e.isLt; omega
    · rfl

/-- A column `[n, 1]` repeated along a second axis of extent `c` reads, at `(e, d)`, the column's entry `e`. -/
theorem spread_apply {n c : ℕ} (h : (⟨2, ![n, 1]⟩ : Shape).BroadcastsInDim ⟨2, ![n, c]⟩ ![0, 1])
    (v : (⟨2, ![n, 1]⟩ : Shape).Idx → α) (e : Fin n) (d : Fin c) :
    broadcastInDim ⟨2, ![n, c]⟩ ![0, 1] h v (ix2 e d) = v (ix2 e (0 : Fin 1)) := by
  refine broadcastInDim_apply _ h v (ix2 e d) (ix2 e (0 : Fin 1)) fun a => ?_
  match a with
  | ⟨0, _⟩ =>
    show e.val = if n = 1 then 0 else e.val
    split
    · have := e.isLt; omega
    · rfl
  | ⟨1, _⟩ => rfl

/-- A vector `[c]` made a one-row table `[1, c]` and repeated along a first axis of extent `n` reads, at `(u, d)`,
    the vector's entry `d`. -/
theorem over_apply {n c : ℕ} (h : (⟨2, ![1, c]⟩ : Shape).BroadcastsInDim ⟨2, ![n, c]⟩ ![0, 1])
    (h' : (⟨1, ![c]⟩ : Shape).BroadcastsInDim ⟨2, ![1, c]⟩ ![1])
    (v : (⟨1, ![c]⟩ : Shape).Idx → α) (u : Fin n) (d : Fin c) :
    broadcastInDim ⟨2, ![n, c]⟩ ![0, 1] h (broadcastInDim ⟨2, ![1, c]⟩ ![1] h' v) (ix2 u d) = v (ix1 d) := by
  have e1 : broadcastInDim ⟨2, ![n, c]⟩ ![0, 1] h (broadcastInDim ⟨2, ![1, c]⟩ ![1] h' v) (ix2 u d)
      = broadcastInDim ⟨2, ![1, c]⟩ ![1] h' v (ix2 (0 : Fin 1) d) := by
    refine broadcastInDim_apply _ h _ (ix2 u d) (ix2 (0 : Fin 1) d) fun a => ?_
    match a with
    | ⟨0, _⟩ => rfl
    | ⟨1, _⟩ =>
      show d.val = if c = 1 then 0 else d.val
      split
      · have := d.isLt; omega
      · rfl
  rw [e1]
  refine broadcastInDim_apply _ h' v (ix2 (0 : Fin 1) d) (ix1 d) fun a => ?_
  match a with
  | ⟨0, _⟩ =>
    show d.val = if c = 1 then 0 else d.val
    split
    · have := d.isLt; omega
    · rfl

/-- Row `r` of a table `[k, n]`, sliced out as `[1, n]` and cast to the vector `[n]`, reads, at `e`, the table at `(r, e)`. -/
theorem row_apply {k n : ℕ} (r : ℕ) (hr : r < k) (hs : (⟨2, ![k, n]⟩ : Shape).Slices ![r, 0] ⟨2, ![1, n]⟩)
    (hc : (⟨2, ![1, n]⟩ : Shape).ShapeCasts ⟨1, ![n]⟩) (x : (⟨2, ![k, n]⟩ : Shape).Idx → α) (e : Fin n) :
    shapeCast ⟨1, ![n]⟩ (extractStridedSlice ⟨2, ![1, n]⟩ ![r, 0] x hs) hc (ix1 e) = x (ix2 (⟨r, hr⟩ : Fin k) e) := by
  rw [shapeCast_1a_a_apply]
  refine extractStridedSlice_apply _ x hs _ (ix2 (⟨r, hr⟩ : Fin k) e) fun a => ?_
  match a with
  | ⟨0, _⟩ => rfl
  | ⟨1, _⟩ => show e.val = 0 + e.val; omega

/-- Two vectors joined end to end read, in the first part, the first vector. -/
theorem cat_left {n m k : ℕ} (h : Shape.Concatenates [(⟨1, ![n]⟩ : Shape), ⟨1, ![m]⟩] ⟨1, ![k]⟩ 0)
    (a : (⟨1, ![n]⟩ : Shape).Idx → α) (b : (⟨1, ![m]⟩ : Shape).Idx → α) (e : Fin n) (he : e.val < k) :
    concatenate ⟨1, ![k]⟩ 0 [⟨⟨1, ![n]⟩, a⟩, ⟨⟨1, ![m]⟩, b⟩] h (ix1 ⟨e.val, he⟩) = a (ix1 e) := by
  refine concatenate_pair_apply_left 0 a b h _ rfl (ix1 e) fun c => ?_
  match c with
  | ⟨0, _⟩ => rfl

/-- … and, in the second part, the second vector. -/
theorem cat_right {n m k : ℕ} (h : Shape.Concatenates [(⟨1, ![n]⟩ : Shape), ⟨1, ![m]⟩] ⟨1, ![k]⟩ 0)
    (a : (⟨1, ![n]⟩ : Shape).Idx → α) (b : (⟨1, ![m]⟩ : Shape).Idx → α) (e : Fin m) (he : n + e.val < k) :
    concatenate ⟨1, ![k]⟩ 0 [⟨⟨1, ![n]⟩, a⟩, ⟨⟨1, ![m]⟩, b⟩] h (ix1 ⟨n + e.val, he⟩) = b (ix1 e) := by
  refine concatenate_pair_apply_right 0 a b h _ rfl rfl (ix1 e) (fun c hc => ?_) (Nat.add_comm _ _)
  match c with
  | ⟨0, _⟩ => exact absurd rfl hc

/-- Two tables `[k, n]` and `[k, m]` joined along the second axis read, in the first part, the first table. -/
theorem cat2_left {k n m l : ℕ} (h : Shape.Concatenates [(⟨2, ![k, n]⟩ : Shape), ⟨2, ![k, m]⟩] ⟨2, ![k, l]⟩ 1)
    (a : (⟨2, ![k, n]⟩ : Shape).Idx → α) (b : (⟨2, ![k, m]⟩ : Shape).Idx → α) (r : Fin k) (e : Fin n) (he : e.val < l) :
    concatenate ⟨2, ![k, l]⟩ 1 [⟨⟨2, ![k, n]⟩, a⟩, ⟨⟨2, ![k, m]⟩, b⟩] h (ix2 r ⟨e.val, he⟩) = a (ix2 r e) := by
  refine concatenate_pair_apply_left 1 a b h _ rfl (ix2 r e) fun c => ?_
  match c with
  | ⟨0, _⟩ => rfl
  | ⟨1, _⟩ => rfl

/-- … and, in the second part, the second table. -/
theorem cat2_right {k n m l : ℕ} (h : Shape.Concatenates [(⟨2, ![k, n]⟩ : Shape), ⟨2, ![k, m]⟩] ⟨2, ![k, l]⟩ 1)
    (a : (⟨2, ![k, n]⟩ : Shape).Idx → α) (b : (⟨2, ![k, m]⟩ : Shape).Idx → α) (r : Fin k) (e : Fin m) (he : n + e.val < l) :
    concatenate ⟨2, ![k, l]⟩ 1 [⟨⟨2, ![k, n]⟩, a⟩, ⟨⟨2, ![k, m]⟩, b⟩] h (ix2 r ⟨n + e.val, he⟩) = b (ix2 r e) := by
  refine concatenate_pair_apply_right 1 a b h _ rfl rfl (ix2 r e) (fun c hc => ?_) (Nat.add_comm _ _)
  match c with
  | ⟨0, _⟩ => rfl
  | ⟨1, _⟩ => exact absurd rfl hc

end Cert.Layout

end
-- ==== Proof.Algebra.lean ====
/-
  The algebra that joins the two programs, on the extended reals.

  Both programs aggregate, for every node and every feature column, the messages of the edges that point at the node.
  The reference sums over all edges at once, each message carrying its relation's row and the symmetric degree
  normalisation `w / (√a · √b)`; the kernel sums the two relation types separately, with the normalisation written as
  `(w · 1/√a) · 1/√b`, and multiplies each partial sum by its relation's row afterwards. With finite features and weights
  and degrees at least one, every message is a real number, so a sum of messages is the real sum, a common factor moves
  out of it, and a sum over a concatenation of two edge lists is the sum of the two partial sums.
-/
import Idealize.ShloMosaic.PureOps.Ideal
import Idealize.ShloMosaic.PureOps.Ideal.Laws

noncomputable section

namespace Cert.Alg

open Idealize.ShloMosaic

/-- A finite sum of real numbers, read on the extended reals, is the real sum. -/
theorem coe_sum {ι : Type*} (s : Finset ι) (f : ι → ℝ) :
    (∑ e ∈ s, ((f e : ℝ) : EReal)) = ((∑ e ∈ s, f e : ℝ) : EReal) := by
  classical
  refine Finset.induction_on s (by simp) ?_
  intro a s ha ih
  rw [Finset.sum_insert ha, Finset.sum_insert ha, ih, EReal.coe_add]

/-- One is not below the bottom element. -/
theorem not_one_le_bot : ¬ (1 : EReal) ≤ ⊥ := fun h => (EReal.coe_ne_bot (1 : ℝ)) (le_bot_iff.mp h)

/-- The reciprocal square root as the programs compute it: one over the square root. -/
def isq (a : EReal) : EReal := Ideal.div 1 (Ideal.sqrt a)

/-- Of a degree at least one (possibly infinite) it is a real number. -/
theorem isq_eq (a : EReal) (h : 1 ≤ a) : ∃ r : ℝ, isq a = (r : EReal) := by
  induction a using EReal.rec with
  | bot => exact absurd h not_one_le_bot
  | top =>
    refine ⟨0, ?_⟩
    simp [isq, Ideal.div]
  | coe r =>
    have hr : (1 : ℝ) ≤ r := by exact_mod_cast h
    have h0 : ¬ r < 0 := by linarith
    have hs : Real.sqrt r ≠ 0 := by
      have : 0 < Real.sqrt r := Real.sqrt_pos.mpr (by linarith)
      exact ne_of_gt this
    refine ⟨1 / Real.sqrt r, ?_⟩
    rw [isq, Ideal.sqrt_coe, if_neg h0, Ideal.div_coe hs, one_mul]

/-- One over the product of two square roots of degrees at least one is the product of the reciprocal square roots. -/
theorem div_sqrt_mul (a b : EReal) (ha : 1 ≤ a) (hb : 1 ≤ b) :
    Ideal.div 1 (Ideal.sqrt a * Ideal.sqrt b) = isq a * isq b := by
  induction a using EReal.rec with
  | bot => exact absurd ha not_one_le_bot
  | top =>
    induction b using EReal.rec with
    | bot => exact absurd hb not_one_le_bot
    | top => simp [isq, Ideal.div]
    | coe s =>
      have hs : (1 : ℝ) ≤ s := by exact_mod_cast hb
      have h0 : ¬ s < 0 := by linarith
      have hp : 0 < Real.sqrt s := Real.sqrt_pos.mpr (by linarith)
      rw [isq, isq, Ideal.sqrt_top, Ideal.sqrt_coe, if_neg h0, EReal.top_mul_coe_of_pos hp]
      simp [Ideal.div]
  | coe r =>
    have hr : (1 : ℝ) ≤ r := by exact_mod_cast ha
    have h0 : ¬ r < 0 := by linarith
    have hp : 0 < Real.sqrt r := Real.sqrt_pos.mpr (by linarith)
    induction b using EReal.rec with
    | bot => exact absurd hb not_one_le_bot
    | top =>
      rw [isq, isq, Ideal.sqrt_top, Ideal.sqrt_coe, if_neg h0, EReal.coe_mul_top_of_pos hp]
      simp [Ideal.div]
    | coe s =>
      have hs : (1 : ℝ) ≤ s := by exact_mod_cast hb
      have h0' : ¬ s < 0 := by linarith
      have hp' : 0 < Real.sqrt s := Real.sqrt_pos.mpr (by linarith)
      rw [isq, isq, Ideal.sqrt_coe, Ideal.sqrt_coe, if_neg h0, if_neg h0', ← EReal.coe_mul,
        Ideal.div_coe (ne_of_gt (mul_pos hp hp')), Ideal.div_coe (ne_of_gt hp), Ideal.div_coe (ne_of_gt hp'),
        one_mul, one_mul, one_mul, ← EReal.coe_mul]
      congr 1
      rw [one_div, one_div, one_div, mul_inv]

/-- One relation type's messages: the reference's sum, each message carrying the relation's factor `ρ` and the
    normalisation `w / (√a · √b)`, is `ρ` times the kernel's partial sum with the normalisation `(w · 1/√a) · 1/√b`. -/
theorem type_sum {ι : Type*} (s : Finset ι) (g w : ι → ℝ) (a b : ι → EReal)
    (ha : ∀ e, 1 ≤ a e) (hb : ∀ e, 1 ≤ b e) (ρ : ℝ) :
    ∑ e ∈ s, ((g e : EReal) * (ρ : EReal)) * ((w e : EReal) * Ideal.div 1 (Ideal.sqrt (a e) * Ideal.sqrt (b e)))
      = (ρ : EReal) * (0 + ∑ e ∈ s, (g e : EReal) * (((w e : EReal) * isq (a e)) * isq (b e))) := by
  choose ra hra using fun e => isq_eq (a e) (ha e)
  choose rb hrb using fun e => isq_eq (b e) (hb e)
  have L : ∀ e, ((g e : EReal) * (ρ : EReal)) * ((w e : EReal) * Ideal.div 1 (Ideal.sqrt (a e) * Ideal.sqrt (b e)))
      = ((g e * ρ * (w e * (ra e * rb e)) : ℝ) : EReal) := by
    intro e
    rw [div_sqrt_mul _ _ (ha e) (hb e), hra, hrb]
    simp only [EReal.coe_mul]
  have R : ∀ e, (g e : EReal) * (((w e : EReal) * isq (a e)) * isq (b e)) = ((g e * (w e * ra e * rb e) : ℝ) : EReal) := by
    intro e
    rw [hra, hrb]
    simp only [EReal.coe_mul]
  rw [Finset.sum_congr rfl (fun e _ => L e), Finset.sum_congr rfl (fun e _ => R e), coe_sum, coe_sum, zero_add,
    ← EReal.coe_mul]
  congr 1
  rw [Finset.mul_sum]
  exact Finset.sum_congr rfl (fun e _ => by ring)

/-- A filtered sum over the concatenation of two lists of `n` edges is the sum of the two filtered partial sums. -/
theorem split_sum {n : ℕ} (P : Fin (n + n) → Prop) [DecidablePred P] (f : Fin (n + n) → EReal) :
    ∑ e ∈ Finset.univ.filter P, f e
      = ∑ e ∈ Finset.univ.filter (fun e : Fin n => P (Fin.castAdd n e)), f (Fin.castAdd n e)
        + ∑ e ∈ Finset.univ.filter (fun e : Fin n => P (Fin.natAdd n e)), f (Fin.natAdd n e) := by
  simp only [Finset.sum_filter]
  exact Fin.sum_univ_add _

end Cert.Alg

end
-- ==== Proof.LibRowIndex.lean ====
/-
  Gathers and scatters that move whole rows by ONE start index per row, read at an index written by coordinates.

  An integer column `idx : [E, 1]` names, for each of `E` edges, one row of an operand with `N` rows.
  * Gathering rows of a matrix `x : [N, C]` gives `[E, C]`: element `(e, c)` is `x` at row `idx[e, 0]` — read as a signed
    integer and clamped into `[0, N - 1]` — and column `c`.
  * Gathering entries of a vector `x : [N]` gives `[E]`: element `e` is `x` at `idx[e, 0]`, read signed and clamped.
  * Scattering the rows of updates `[E, C]` into `[N, C]`: update element `(e, c)` lands in row `idx[e, 0]` read as a signed
    integer and NOT clamped (an update whose row is outside `[0, N)` is dropped). All that is stated here is the row: if
    the update lands at `i`, then `idx[e, 0]`, as a signed integer, is `i`'s row.
-/
import Idealize.ShloMosaic.Lib.ValueIdx

noncomputable section

namespace Cert.Lib.RowIndex

open Idealize.ShloMosaic Idealize.ShloMosaic.ValueIdx

variable {α : Type}

/-! ## Gathering rows of a matrix -/

/-- The dimension numbers of `x[idx]` for a matrix `x : [N, C]` and a column of row numbers `idx : [E, 1]`: the rows
    are collapsed, the columns are the offset axis, one start index per result row. -/
abbrev rowGatherDims (N C E : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Element `(e, c)` of the gathered rows is the matrix at the clamped row `idx[e, 0]` and column `c`. -/
theorem rowGather_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N C E wf) x idx (ix2 e c)
      = x (ix2 ⟨min (idx (ix2 e 0)).toInt.toNat (N - 1), by omega⟩ c) := by
  unfold Host.gather
  congr 1
  funext a
  refine Fin.ext ?_
  match a with
  | ⟨0, _⟩ =>
    show (rowGatherDims N C E wf).start (ix2 e c) idx 0 + (rowGatherDims N C E wf).batchCoord (ix2 e c) 0
      + (rowGatherDims N C E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N C E wf).startIndexMap from List.mem_singleton.mpr rfl)]
    have hsi : (rowGatherDims N C E wf).siIdx (ix2 e c) ⟨List.idxOf (0 : Fin 2) (rowGatherDims N C E wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowGatherDims N C E wf).start (ix2 e c) idx 1 + (rowGatherDims N C E wf).batchCoord (ix2 e c) 1
      + (rowGatherDims N C E wf).offCoord (ix2 e c) 1 = c.val
    rw [GatherDims.batchCoord_eq_zero _ _ _ List.not_mem_nil]
    have hs : (rowGatherDims N C E wf).start (ix2 e c) idx 1 = 0 := by
      unfold GatherDims.start
      rw [dif_neg (show ¬ (1 : Fin 2) ∈ (rowGatherDims N C E wf).startIndexMap from
        (by decide : ¬ (1 : Fin 2) ∈ ([0] : List (Fin 2))))]
    have ho : (rowGatherDims N C E wf).offCoord (ix2 e c) 1 = c.val := by
      unfold GatherDims.offCoord
      rw [dif_pos (show (1 : Fin 2) ∈ (rowGatherDims N C E wf).sKept from
        (GatherDims.mem_sKept _ _).mpr ⟨(by decide : ¬ (1 : Fin 2) ∈ ([0] : List (Fin 2))), List.not_mem_nil⟩)]
      rfl
    rw [hs, ho]; omega

/-! ## Gathering entries of a vector -/

/-- The dimension numbers of `x[idx]` for a vector `x : [N]` and a column of positions `idx : [E, 1]`. -/
abbrev vecGatherDims (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Element `e` of the gathered entries is the vector at the clamped position `idx[e, 0]`. -/
theorem vecGather_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecGatherDims N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecGatherDims N E wf).start (ix1 e) idx 0 + (vecGatherDims N E wf).batchCoord (ix1 e) 0
    + (vecGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N E wf).startIndexMap from List.mem_singleton.mpr rfl)]
  have hsi : (vecGatherDims N E wf).siIdx (ix1 e) ⟨List.idxOf (0 : Fin 1) (vecGatherDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scattering rows -/

/-- The dimension numbers of `zeros.at[idx].add(u)` for updates `u : [E, C]` into `[N, C]` and a column of row numbers
    `idx : [E, 1]`: the update's columns are its window, the operand's rows are inserted, one start index per update row. -/
abbrev rowScatterDims (N C E : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- If update element `u` lands at `i`, then its row number `idx[u₀, 0]`, as a signed integer, is `i`'s row. -/
theorem rowScatter_row {N C E w : Nat}
    (wf : ScatterDims.WF ⟨2, ![N, C]⟩ ⟨2, ![E, 1]⟩ ⟨2, ![E, C]⟩ [1] [0] [0] 1)
    (idx : IVec ⟨2, ![E, 1]⟩ w) (u : (⟨2, ![E, C]⟩ : Shape).Idx) (i : (⟨2, ![N, C]⟩ : Shape).Idx)
    (h : (rowScatterDims N C E wf).resultIdx? u idx = some i) :
    (idx (ix2 (u 0) 0)).toInt = ((i 0).val : Int) := by
  have hs : (rowScatterDims N C E wf).start u idx 0 = (idx (ix2 (u 0) 0)).toInt := by
    unfold ScatterDims.start
    rw [dif_pos (show (0 : Fin 2) ∈ (rowScatterDims N C E wf).scatterDimsToOperandDims from List.mem_singleton.mpr rfl)]
    have hsi : (rowScatterDims N C E wf).siIdx u ⟨List.idxOf (0 : Fin 2) (rowScatterDims N C E wf).scatterDimsToOperandDims,
        List.idxOf_lt_length_iff.2 (List.mem_singleton.mpr rfl)⟩ = ix2 (u 0) 0 := by
      funext b; refine Fin.ext ?_
      match b with
      | ⟨0, _⟩ => rfl
      | ⟨1, _⟩ => rfl
    rw [hsi]
    rfl
  have hw : (rowScatterDims N C E wf).window u 0 = 0 := by
    unfold ScatterDims.window
    rw [dif_neg (show ¬ (0 : Fin 2) ∈ (rowScatterDims N C E wf).sKept from
      (by decide : ¬ (0 : Fin 2) ∈ (List.finRange 2).filter (fun a => a ∉ ([0] : List (Fin 2)))))]
  unfold ScatterDims.resultIdx? at h
  split at h
  · rename_i hb
    have h0 : ((rowScatterDims N C E wf).start u idx 0 + ((rowScatterDims N C E wf).window u 0 : Int)).toNat = (i 0).val :=
      congrArg (fun f : (⟨2, ![N, C]⟩ : Shape).Idx => (f 0).val) (Option.some.inj h)
    have hb0 := (hb 0).1
    rw [hs, hw] at h0 hb0
    simp only [Nat.cast_zero, add_zero] at h0 hb0
    omega
  · exact absurd h (by simp)

end Cert.Lib.RowIndex

end
-- ==== Proof.LibRowScatterSum.lean ====
/-
  A scatter-add of rows, and of vector entries, by ONE row number per update, read at an index as a sum over the updates.

  An integer column `idx : [E, 1]` names one row of the operand for each of `E` updates. Update element `(e, c')` of
  `u : [E, C]` lands on operand element `(i, c)` of `[N, C]` exactly when `idx[e, 0]`, read as a signed integer, is `i`
  and `c' = c` (an update whose row is outside `[0, N)` lands nowhere). So on the extended reals the accumulated
  scatter is, at `(i, c)`, the operand's element plus the sum of `u[e, c]` over the updates `e` whose row number is `i`:
  which updates contribute depends on the column of row numbers only, not on `c` and not on the width `C`.
  The same for a vector of updates `[E]` scattered into `[N]`.
-/
import Idealize.ShloMosaic.Lib.ValueIdx
import Idealize.ShloMosaic.PureOps.Ideal.Laws
import proofs.«150043_j45045617000625_2_alg».proof.Proof.LibRowIndex

noncomputable section

namespace Cert.Lib.RowScatterSum

open Idealize.ShloMosaic Idealize.ShloMosaic.ValueIdx Cert.Lib.RowIndex

/-! ## Rows of a matrix -/

section Rows

variable {N C E w : Nat} (wf : ScatterDims.WF ⟨2, ![N, C]⟩ ⟨2, ![E, 1]⟩ ⟨2, ![E, C]⟩ [1] [0] [0] 1)

/-- On the row axis the start of an update's window is its row number, read signed. -/
theorem start_row (idx : IVec ⟨2, ![E, 1]⟩ w) (u : (⟨2, ![E, C]⟩ : Shape).Idx) :
    (rowScatterDims N C E wf).start u idx 0 = (idx (ix2 (u 0) 0)).toInt := by
  unfold ScatterDims.start
  rw [dif_pos (show (0 : Fin 2) ∈ (rowScatterDims N C E wf).scatterDimsToOperandDims from List.mem_singleton.mpr rfl)]
  have hsi : (rowScatterDims N C E wf).siIdx u ⟨List.idxOf (0 : Fin 2) (rowScatterDims N C E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

/-- On the column axis the window starts at zero. -/
theorem start_col (idx : IVec ⟨2, ![E, 1]⟩ w) (u : (⟨2, ![E, C]⟩ : Shape).Idx) :
    (rowScatterDims N C E wf).start u idx 1 = 0 := by
  unfold ScatterDims.start
  rw [dif_neg (show ¬ (1 : Fin 2) ∈ (rowScatterDims N C E wf).scatterDimsToOperandDims from
    (by decide : ¬ (1 : Fin 2) ∈ ([0] : List (Fin 2))))]

/-- The row axis is inserted: no window coordinate on it. -/
theorem window_row (u : (⟨2, ![E, C]⟩ : Shape).Idx) : (rowScatterDims N C E wf).window u 0 = 0 := by
  unfold ScatterDims.window
  rw [dif_neg (show ¬ (0 : Fin 2) ∈ (rowScatterDims N C E wf).sKept from
    (by decide : ¬ (0 : Fin 2) ∈ (List.finRange 2).filter (fun a => a ∉ ([0] : List (Fin 2)))))]

/-- The window coordinate on the column axis is the update's column. -/
theorem window_col (u : (⟨2, ![E, C]⟩ : Shape).Idx) : (rowScatterDims N C E wf).window u 1 = (u 1).val := by
  unfold ScatterDims.window
  rw [dif_pos (show (1 : Fin 2) ∈ (rowScatterDims N C E wf).sKept from
    (by decide : (1 : Fin 2) ∈ (List.finRange 2).filter (fun a => a ∉ ([0] : List (Fin 2)))))]
  rfl

/-- Update element `(e, c')` lands on `(i, c)` exactly when its row number is `i` and its column is `c`. -/
theorem lands_iff (idx : IVec ⟨2, ![E, 1]⟩ w) (e : Fin E) (c' : Fin C) (i : Fin N) (c : Fin C) :
    (rowScatterDims N C E wf).resultIdx? (ix2 e c') idx = some (ix2 i c)
      ↔ ((idx (ix2 e 0)).toInt = (i.val : Int) ∧ c' = c) := by
  have s0 : (rowScatterDims N C E wf).start (ix2 e c') idx 0 = (idx (ix2 e 0)).toInt := start_row wf idx (ix2 e c')
  have s1 := start_col wf idx (ix2 e c')
  have w0 := window_row wf (ix2 e c')
  have w1 : (rowScatterDims N C E wf).window (ix2 e c') 1 = c'.val := window_col wf (ix2 e c')
  unfold ScatterDims.resultIdx?
  constructor
  · intro h
    split at h
    · rename_i hb
      have hv := Option.some.inj h
      have e0 : ((rowScatterDims N C E wf).start (ix2 e c') idx 0
          + ((rowScatterDims N C E wf).window (ix2 e c') 0 : Int)).toNat = i.val :=
        congrArg (fun f : (⟨2, ![N, C]⟩ : Shape).Idx => (f 0).val) hv
      have e1 : ((rowScatterDims N C E wf).start (ix2 e c') idx 1
          + ((rowScatterDims N C E wf).window (ix2 e c') 1 : Int)).toNat = c.val :=
        congrArg (fun f : (⟨2, ![N, C]⟩ : Shape).Idx => (f 1).val) hv
      have hb0 := (hb 0).1
      rw [s0, w0] at e0 hb0
      rw [s1, w1] at e1
      simp only [Nat.cast_zero, add_zero] at e0 hb0
      exact ⟨by omega, Fin.ext (by omega)⟩
    · exact absurd h (by simp)
  · rintro ⟨hr, rfl⟩
    split
    · refine congrArg some (funext fun a => Fin.ext ?_)
      match a with
      | ⟨0, _⟩ =>
        show ((rowScatterDims N C E wf).start (ix2 e c') idx 0
          + ((rowScatterDims N C E wf).window (ix2 e c') 0 : Int)).toNat = i.val
        rw [s0, w0, hr]; simp
      | ⟨1, _⟩ =>
        show ((rowScatterDims N C E wf).start (ix2 e c') idx 1
          + ((rowScatterDims N C E wf).window (ix2 e c') 1 : Int)).toNat = c'.val
        rw [s1, w1]; simp
    · rename_i hb
      exfalso; apply hb; intro a
      match a with
      | ⟨0, _⟩ =>
        show 0 ≤ (rowScatterDims N C E wf).start (ix2 e c') idx 0 + ((rowScatterDims N C E wf).window (ix2 e c') 0 : Int)
          ∧ (rowScatterDims N C E wf).start (ix2 e c') idx 0 + ((rowScatterDims N C E wf).window (ix2 e c') 0 : Int) < (N : Int)
        rw [s0, w0, hr]; have := i.isLt; constructor <;> omega
      | ⟨1, _⟩ =>
        show 0 ≤ (rowScatterDims N C E wf).start (ix2 e c') idx 1 + ((rowScatterDims N C E wf).window (ix2 e c') 1 : Int)
          ∧ (rowScatterDims N C E wf).start (ix2 e c') idx 1 + ((rowScatterDims N C E wf).window (ix2 e c') 1 : Int) < (C : Int)
        rw [s1, w1]; have := c'.isLt; constructor <;> omega

/-- The accumulated row scatter at `(i, c)`: the operand's element plus the sum, over the updates whose row number is
    `i`, of the update's element in column `c`. -/
theorem rowScatterAdd_apply {φ : FTy} (x : FVec Ideal ⟨2, ![N, C]⟩ φ) (idx : IVec ⟨2, ![E, 1]⟩ w)
    (upd : FVec Ideal ⟨2, ![E, C]⟩ φ) (i : Fin N) (c : Fin C) :
    Host.scatterAdd (rowScatterDims N C E wf) x idx upd (ix2 i c)
      = x (ix2 i c) + ∑ e ∈ Finset.univ.filter (fun e : Fin E => (idx (ix2 e 0)).toInt = (i.val : Int)), upd (ix2 e c) := by
  show Ideal.hostScatterAdd (rowScatterDims N C E wf) x idx upd (ix2 i c) = _
  unfold Ideal.hostScatterAdd
  congr 1
  rw [Finset.sum_filter, sum_idx2, Finset.sum_filter]
  refine Finset.sum_congr rfl fun e _ => ?_
  by_cases hr : (idx (ix2 e 0)).toInt = (i.val : Int)
  · rw [if_pos hr, Finset.sum_eq_single c]
    · rw [if_pos ((lands_iff wf idx e c i c).mpr ⟨hr, rfl⟩)]
    · intro c' _ hne
      exact if_neg fun h => hne ((lands_iff wf idx e c' i c).mp h).2
    · intro h; exact absurd (Finset.mem_univ c) h
  · rw [if_neg hr]
    exact Finset.sum_eq_zero fun c' _ => if_neg fun h => hr ((lands_iff wf idx e c' i c).mp h).1

end Rows

/-! ## Entries of a vector -/

section Entries

/-- A rank-1 index is its one coordinate. -/
def idxEquiv1 {n : Nat} : (⟨1, ![n]⟩ : Shape).Idx ≃ Fin n where
  toFun i := i 0
  invFun a := ix1 a
  left_inv i := (eq_ix1 i).symm
  right_inv _ := rfl

/-- … so a sum over it is the sum over that coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of `zeros.at[idx].add(u)` for updates `u : [E]` into `[N]` and a column of positions
    `idx : [E, 1]`: no window axis, the operand's one axis inserted, one start index per update. -/
abbrev vecScatterDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

theorem vstart (idx : IVec ⟨2, ![E, 1]⟩ w) (u : (⟨1, ![E]⟩ : Shape).Idx) :
    (vecScatterDims N E wf).start u idx 0 = (idx (ix2 (u 0) 0)).toInt := by
  unfold ScatterDims.start
  rw [dif_pos (show (0 : Fin 1) ∈ (vecScatterDims N E wf).scatterDimsToOperandDims from List.mem_singleton.mpr rfl)]
  have hsi : (vecScatterDims N E wf).siIdx u ⟨List.idxOf (0 : Fin 1) (vecScatterDims N E wf).scatterDimsToOperandDims,
      List.idxOf_lt_length_iff.2 (List.mem_singleton.mpr rfl)⟩ = ix2 (u 0) 0 := by
    funext b; refine Fin.ext ?_
    match b with
    | ⟨0, _⟩ => rfl
    | ⟨1, _⟩ => rfl
  rw [hsi]
  rfl

theorem vwindow (u : (⟨1, ![E]⟩ : Shape).Idx) : (vecScatterDims N E wf).window u 0 = 0 := by
  unfold ScatterDims.window
  rw [dif_neg (show ¬ (0 : Fin 1) ∈ (vecScatterDims N E wf).sKept from
    (by decide : ¬ (0 : Fin 1) ∈ (List.finRange 1).filter (fun a => a ∉ ([0] : List (Fin 1)))))]

/-- Update `e` lands on entry `i` exactly when its position, read signed, is `i`. -/
theorem vlands_iff (idx : IVec ⟨2, ![E, 1]⟩ w) (e : Fin E) (i : Fin N) :
    (vecScatterDims N E wf).resultIdx? (ix1 e) idx = some (ix1 i) ↔ (idx (ix2 e 0)).toInt = (i.val : Int) := by
  have s0 : (vecScatterDims N E wf).start (ix1 e) idx 0 = (idx (ix2 e 0)).toInt := vstart wf idx (ix1 e)
  have w0 := vwindow wf (ix1 e)
  unfold ScatterDims.resultIdx?
  constructor
  · intro h
    split at h
    · rename_i hb
      have e0 : ((vecScatterDims N E wf).start (ix1 e) idx 0
          + ((vecScatterDims N E wf).window (ix1 e) 0 : Int)).toNat = i.val :=
        congrArg (fun f : (⟨1, ![N]⟩ : Shape).Idx => (f 0).val) (Option.some.inj h)
      have hb0 := (hb 0).1
      rw [s0, w0] at e0 hb0
      simp only [Nat.cast_zero, add_zero] at e0 hb0
      omega
    · exact absurd h (by simp)
  · intro hr
    split
    · refine congrArg some (funext fun a => Fin.ext ?_)
      match a with
      | ⟨0, _⟩ =>
        show ((vecScatterDims N E wf).start (ix1 e) idx 0
          + ((vecScatterDims N E wf).window (ix1 e) 0 : Int)).toNat = i.val
        rw [s0, w0, hr]; simp
    · rename_i hb
      exfalso; apply hb; intro a
      match a with
      | ⟨0, _⟩ =>
        show 0 ≤ (vecScatterDims N E wf).start (ix1 e) idx 0 + ((vecScatterDims N E wf).window (ix1 e) 0 : Int)
          ∧ (vecScatterDims N E wf).start (ix1 e) idx 0 + ((vecScatterDims N E wf).window (ix1 e) 0 : Int) < (N : Int)
        rw [s0, w0, hr]; have := i.isLt; constructor <;> omega

/-- The accumulated scatter of vector entries at `i`: the operand's entry plus the sum of the updates whose position is `i`. -/
theorem vecScatterAdd_apply {φ : FTy} (x : FVec Ideal ⟨1, ![N]⟩ φ) (idx : IVec ⟨2, ![E, 1]⟩ w)
    (upd : FVec Ideal ⟨1, ![E]⟩ φ) (i : Fin N) :
    Host.scatterAdd (vecScatterDims N E wf) x idx upd (ix1 i)
      = x (ix1 i) + ∑ e ∈ Finset.univ.filter (fun e : Fin E => (idx (ix2 e 0)).toInt = (i.val : Int)), upd (ix1 e) := by
  show Ideal.hostScatterAdd (vecScatterDims N E wf) x idx upd (ix1 i) = _
  unfold Ideal.hostScatterAdd
  congr 1
  rw [Finset.sum_filter, sum_idx1, Finset.sum_filter]
  refine Finset.sum_congr rfl fun e _ => ?_
  by_cases hr : (idx (ix2 e 0)).toInt = (i.val : Int)
  · rw [if_pos hr, if_pos ((vlands_iff wf idx e i).mpr hr)]
  · rw [if_neg hr, if_neg fun h => hr ((vlands_iff wf idx e i).mp h)]

end Entries

end Cert.Lib.RowScatterSum

end
-- ==== Proof.KernelRead.lean ====
/-
  The kernel's host part read at an index, on the extended reals.

  An edge `e` of one list has a user number and an item number (32-bit words). A gather reads the row those words name
  after wrapping a negative number round the axis and clamping into it; a scatter adds update `e` to the row its word
  names as a signed integer, or nowhere when that is no row. With these two readings every array of the host part is a
  closed expression of the argument arrays at coordinates: the scale of an edge, a scaled neighbour feature, and the
  aggregated message of node `u` in column `d` as `r₀[d] · (0 + Σ …) + r₁[d] · (0 + Σ …)`, one sum per edge list over the
  edges whose target is `u`.
-/
import proofs.«150043_j45045617000625_2_alg».proof.Proof.KernelHost
import proofs.«150043_j45045617000625_2_alg».proof.Proof.Layout
import proofs.«150043_j45045617000625_2_alg».proof.Proof.Algebra
import proofs.«150043_j45045617000625_2_alg».proof.Proof.LibRowIndex
import proofs.«150043_j45045617000625_2_alg».proof.Proof.LibRowScatterSum
import Idealize.ShloMosaic.Lib.IdealHost

noncomputable section

namespace Cert.Spec

open Idealize.ShloMosaic Idealize.ShloMosaic.ValueIdx

/-- A negative word counts from the end of an axis of extent `n`. -/
def wrapS (n b : BitVec 32) : BitVec 32 := Scalar.select (IntOp.cmpi .slt b 0#32) (IntOp.addi b n) b

/-- The row of an axis of extent `N` that a start word names: the word as a signed integer, clamped into the axis. -/
def clamp (N : ℕ) (hN : 0 < N) (b : BitVec 32) : Fin N := ⟨min b.toInt.toNat (N - 1), by omega⟩

/-- The row a gather reads for a word: wrapped, then clamped. -/
def rowOf (N : ℕ) (hN : 0 < N) (n b : BitVec 32) : Fin N := clamp N hN (wrapS n b)

open Cert.Lib.RowIndex in
/-- A gather of vector entries by a column of start words reads the entry the word names, clamped. -/
theorem gatherVec_read {α : Type} {N E : ℕ} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ 32) (e : Fin E) (b : BitVec 32)
    (hb : idx (ix2 e 0) = b) :
    Host.gather (vecGatherDims N E wf) x idx (ix1 e) = x (ix1 (clamp N hN b)) :=
  (vecGather_apply hN wf x idx e).trans (congrArg (fun b : BitVec 32 => x (ix1 (clamp N hN b))) hb)

open Cert.Lib.RowIndex in
/-- A gather of matrix rows by a column of start words reads the row the word names, clamped. -/
theorem gatherRows_read {α : Type} {N C E : ℕ} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ 32) (e : Fin E) (c : Fin C) (b : BitVec 32)
    (hb : idx (ix2 e 0) = b) :
    Host.gather (rowGatherDims N C E wf) x idx (ix2 e c) = x (ix2 (clamp N hN b) c) :=
  (rowGather_apply hN wf x idx e c).trans (congrArg (fun b : BitVec 32 => x (ix2 (clamp N hN b) c)) hb)

end Cert.Spec

namespace Cert.KernelIdeal.HostValue

open Cert.KernelIdeal Cert.KernelIdeal.Gen Idealize.ShloMosaic Idealize.ShloMosaic.ValueIdx Cert.Spec Cert.Lib.RowIndex Cert.Lib.RowScatterSum

/-! ## Layout -/

theorem rowA_apply {α : Type} (x : S2x300000.Idx → α) (e : Fin 300000) :
    shapeCast S300000 (extractStridedSlice S1x300000 ![0, 0] x slices_S2x300000_S1x300000_0_0) shapeCasts_S1x300000_S300000 (ix1 e)
      = x (ix2 (0 : Fin 2) e) :=
  Cert.Layout.row_apply 0 (by decide) _ _ x e

theorem rowB_apply {α : Type} (x : S2x300000.Idx → α) (e : Fin 300000) :
    shapeCast S300000 (extractStridedSlice S1x300000 ![1, 0] x slices_S2x300000_S1x300000_1_0) shapeCasts_S1x300000_S300000 (ix1 e)
      = x (ix2 (1 : Fin 2) e) :=
  Cert.Layout.row_apply 1 (by decide) _ _ x e

theorem col3_apply (a : CI Ideal S300000) (e : Fin 300000) : col3 a (ix2 e (0 : Fin 1)) = a (ix1 e) :=
  Cert.Layout.col_apply _ a e 0

theorem wrap_apply (n : BitVec 32) (a : CI Ideal S300000) (e : Fin 300000) : wrap n a (ix1 e) = wrapS n (a (ix1 e)) := rfl

theorem spread_apply (s : CF Ideal S300000) (e : Fin 300000) (d : Fin 128) : spread s (ix2 e d) = s (ix1 e) := by
  unfold spread
  rw [Cert.Layout.spread_apply, Cert.Layout.col_apply]

theorem overU_apply (v : CF Ideal S128) (u : Fin 100000) (d : Fin 128) : overU v (ix2 u d) = v (ix1 d) :=
  Cert.Layout.over_apply _ _ v u d

theorem overI_apply (v : CF Ideal S128) (u : Fin 50000) (d : Fin 128) : overI v (ix2 u d) = v (ix1 d) :=
  Cert.Layout.over_apply _ _ v u d

theorem relA_apply (x2 : CF Ideal S2x128) (d : Fin 128) : relA x2 (ix1 d) = x2 (ix2 (0 : Fin 2) d) :=
  Cert.Layout.row_apply 0 (by decide) _ _ x2 d

theorem relB_apply (x2 : CF Ideal S2x128) (d : Fin 128) : relB x2 (ix1 d) = x2 (ix2 (1 : Fin 2) d) :=
  Cert.Layout.row_apply 1 (by decide) _ _ x2 d

/-! ## Degrees and their reciprocal roots -/

theorem degU_ge (iu : CI Ideal S600000) (w : CF Ideal S600000) (j : S100000.Idx) : 1 ≤ degU iu w j := by
  unfold degU
  rw [maximumf_apply]
  refine le_max_of_le_left ?_
  show (1 : EReal) ≤ Ideal.ofBits .f32 0x3F800000#32
  rw [Ideal.ofBits_one_f32]

theorem degI_ge (ii : CI Ideal S600000) (w : CF Ideal S600000) (j : S50000.Idx) : 1 ≤ degI ii w j := by
  unfold degI
  rw [maximumf_apply]
  refine le_max_of_le_left ?_
  show (1 : EReal) ≤ Ideal.ofBits .f32 0x3F800000#32
  rw [Ideal.ofBits_one_f32]

theorem invU_apply (d : CF Ideal S100000) (j : S100000.Idx) : invU d j = Cert.Alg.isq (d j) := by
  show Ideal.div (Ideal.ofBits .f32 0x3F800000#32) (Ideal.sqrt (d j)) = _
  rw [Ideal.ofBits_one_f32]
  rfl

theorem invI_apply (d : CF Ideal S50000) (j : S50000.Idx) : invI d j = Cert.Alg.isq (d j) := by
  show Ideal.div (Ideal.ofBits .f32 0x3F800000#32) (Ideal.sqrt (d j)) = _
  rw [Ideal.ofBits_one_f32]
  rfl

/-! ## Gathers -/

theorem gatherU_apply (du : CF Ideal S100000) (a : CI Ideal S300000) (e : Fin 300000) :
    Host.gather gather_S100000_S300000x1_S300000_n_0_n_n_0_1_1 du (col3 (wrap 100000#32 a)) (ix1 e)
      = du (ix1 (rowOf 100000 (by decide) 100000#32 (a (ix1 e)))) :=
  gatherVec_read (by decide) gather_S100000_S300000x1_S300000_n_0_n_n_0_1_1_wf du _ e _ ((col3_apply _ e).trans (wrap_apply _ a e))

theorem gatherI_apply (di : CF Ideal S50000) (a : CI Ideal S300000) (e : Fin 300000) :
    Host.gather gather_S50000_S300000x1_S300000_n_0_n_n_0_1_1 di (col3 (wrap 50000#32 a)) (ix1 e)
      = di (ix1 (rowOf 50000 (by decide) 50000#32 (a (ix1 e)))) :=
  gatherVec_read (by decide) gather_S50000_S300000x1_S300000_n_0_n_n_0_1_1_wf di _ e _ ((col3_apply _ e).trans (wrap_apply _ a e))

theorem gatherRowsI_apply (x1 : CF Ideal S50000x128) (a : CI Ideal S300000) (e : Fin 300000) (d : Fin 128) :
    Host.gather gather_S50000x128_S300000x1_S300000x128_1_0_n_n_0_1_1128 x1 (col3 (wrap 50000#32 a)) (ix2 e d)
      = x1 (ix2 (rowOf 50000 (by decide) 50000#32 (a (ix1 e))) d) :=
  gatherRows_read (by decide) gather_S50000x128_S300000x1_S300000x128_1_0_n_n_0_1_1128_wf x1 _ e d _ ((col3_apply _ e).trans (wrap_apply _ a e))

theorem gatherRowsU_apply (x0 : CF Ideal S100000x128) (a : CI Ideal S300000) (e : Fin 300000) (d : Fin 128) :
    Host.gather gather_S100000x128_S300000x1_S300000x128_1_0_n_n_0_1_1128 x0 (col3 (wrap 100000#32 a)) (ix2 e d)
      = x0 (ix2 (rowOf 100000 (by decide) 100000#32 (a (ix1 e))) d) :=
  gatherRows_read (by decide) gather_S100000x128_S300000x1_S300000x128_1_0_n_n_0_1_1128_wf x0 _ e d _ ((col3_apply _ e).trans (wrap_apply _ a e))

/-! ## The scale of an edge, a scaled neighbour feature -/

theorem scl_apply (w : CF Ideal S300000) (du : CF Ideal S100000) (di : CF Ideal S50000) (ru ri : CI Ideal S300000) (e : Fin 300000) :
    scl w du di ru ri (ix1 e)
      = (w (ix1 e) * du (ix1 (rowOf 100000 (by decide) 100000#32 (ru (ix1 e)))))
          * di (ix1 (rowOf 50000 (by decide) 50000#32 (ri (ix1 e)))) := by
  unfold scl
  rw [mulf_apply, mulf_apply, gatherU_apply, gatherI_apply]

theorem phiU_apply (x1 : CF Ideal S50000x128) (ri : CI Ideal S300000) (s : CF Ideal S300000) (e : Fin 300000) (d : Fin 128) :
    phiU x1 ri s (ix2 e d) = x1 (ix2 (rowOf 50000 (by decide) 50000#32 (ri (ix1 e))) d) * s (ix1 e) := by
  unfold phiU
  rw [mulf_apply, gatherRowsI_apply, spread_apply]

theorem phiI_apply (x0 : CF Ideal S100000x128) (ru : CI Ideal S300000) (s : CF Ideal S300000) (e : Fin 300000) (d : Fin 128) :
    phiI x0 ru s (ix2 e d) = x0 (ix2 (rowOf 100000 (by decide) 100000#32 (ru (ix1 e))) d) * s (ix1 e) := by
  unfold phiI
  rw [mulf_apply, gatherRowsU_apply, spread_apply]

/-! ## Messages summed per node -/

theorem msgU_apply (ru : CI Ideal S300000) (phi : CF Ideal S300000x128) (u : Fin 100000) (d : Fin 128) :
    msgU ru phi (ix2 u d)
      = 0 + ∑ e ∈ Finset.univ.filter (fun e : Fin 300000 => (ru (ix1 e)).toInt = (u.val : Int)), phi (ix2 e d) := by
  have h := rowScatterAdd_apply (N := 100000) (C := 128) (E := 300000) scatter_S100000x128_S300000x1_S300000x128_1_0_0_1_wf
    (broadcastInDim S100000x128 ![] bcast_S_S100000x128 (constant (F := Ideal) S_ .f32 0x00000000#32)) (col3 ru) phi u d
  simp only [col3_apply] at h
  rw [show broadcastInDim S100000x128 ![] bcast_S_S100000x128 (constant (F := Ideal) S_ .f32 0x00000000#32) (ix2 u d) = 0 from
    Ideal.ofBits_zero_f32] at h
  exact h

theorem msgI_apply (ri : CI Ideal S300000) (phi : CF Ideal S300000x128) (u : Fin 50000) (d : Fin 128) :
    msgI ri phi (ix2 u d)
      = 0 + ∑ e ∈ Finset.univ.filter (fun e : Fin 300000 => (ri (ix1 e)).toInt = (u.val : Int)), phi (ix2 e d) := by
  have h := rowScatterAdd_apply (N := 50000) (C := 128) (E := 300000) scatter_S50000x128_S300000x1_S300000x128_1_0_0_1_wf
    (broadcastInDim S50000x128 ![] bcast_S_S50000x128 (constant (F := Ideal) S_ .f32 0x00000000#32)) (col3 ri) phi u d
  simp only [col3_apply] at h
  rw [show broadcastInDim S50000x128 ![] bcast_S_S50000x128 (constant (F := Ideal) S_ .f32 0x00000000#32) (ix2 u d) = 0 from
    Ideal.ofBits_zero_f32] at h
  exact h

end Cert.KernelIdeal.HostValue

end
-- ==== Proof.RefRead.lean ====
/-
  The reference's host program read at an index, on the extended reals.

  The reference joins the two edge lists first and works on the joined list of 600000 edges: edge `j` has a user word, an
  item word, a weight and a relation number (0 on the first half, 1 on the second). Its arrays are read here at
  coordinates exactly as the kernel's are: the joined lists at the two halves, the wrapped and clamped rows the gathers
  read, the scale `w · 1/(√deg_u · √deg_i)` of an edge, the message `(x · r) · scale`, and the aggregated messages as a
  sum over the joined edges whose target is the node.
-/
import proofs.«150043_j45045617000625_2_alg».proof.Proof.Gen.ReferenceIdeal.Read
import proofs.«150043_j45045617000625_2_alg».proof.Proof.KernelRead

noncomputable section

namespace Cert.ReferenceIdeal.RefValue

open Cert.ReferenceIdeal Cert.ReferenceIdeal.Gen Cert.ReferenceIdeal.Read Idealize.ShloMosaic Idealize.ShloMosaic.ValueIdx Cert.Spec
  Cert.Lib.RowIndex Cert.Lib.RowScatterSum

abbrev CI (s : Shape) := (⟨s, .i32⟩ : BufTy).Contents (Elt Ideal)
abbrev CF (s : Shape) := (⟨s, .f32⟩ : BufTy).Contents (Elt Ideal)

/-- The first and the second half of the joined edge list. -/
abbrev lo (e : Fin 300000) : Fin 600000 := Fin.castAdd 300000 e
abbrev hi (e : Fin 300000) : Fin 600000 := Fin.natAdd 300000 e

/-! ## The joined lists at the two halves -/

theorem v6_apply (x3 x5 : CI S2x300000) (j : Fin 600000) :
    val_main_v6 (F := Ideal) x3 x5 (ix1 j) = val_main_v0 (F := Ideal) x3 x5 (ix2 (0 : Fin 2) j) := by
  unfold val_main_v6 val_main_v5
  exact Cert.Layout.row_apply 0 (by decide) _ _ _ j

theorem v8_apply (x3 x5 : CI S2x300000) (j : Fin 600000) :
    val_main_v8 (F := Ideal) x3 x5 (ix1 j) = val_main_v0 (F := Ideal) x3 x5 (ix2 (1 : Fin 2) j) := by
  unfold val_main_v8 val_main_v7
  exact Cert.Layout.row_apply 1 (by decide) _ _ _ j

theorem v0_lo (x3 x5 : CI S2x300000) (r : Fin 2) (e : Fin 300000) :
    val_main_v0 (F := Ideal) x3 x5 (ix2 r (lo e)) = x3 (ix2 r e) :=
  Cert.Layout.cat2_left _ x3 x5 r e _

theorem v0_hi (x3 x5 : CI S2x300000) (r : Fin 2) (e : Fin 300000) :
    val_main_v0 (F := Ideal) x3 x5 (ix2 r (hi e)) = x5 (ix2 r e) :=
  Cert.Layout.cat2_right _ x3 x5 r e _

theorem v1_lo (x4 x6 : CF S300000) (e : Fin 300000) : val_main_v1 (F := Ideal) x4 x6 (ix1 (lo e)) = x4 (ix1 e) :=
  Cert.Layout.cat_left _ x4 x6 e _

theorem v1_hi (x4 x6 : CF S300000) (e : Fin 300000) : val_main_v1 (F := Ideal) x4 x6 (ix1 (hi e)) = x6 (ix1 e) :=
  Cert.Layout.cat_right _ x4 x6 e _

theorem v4_lo (e : Fin 300000) : val_main_v4 (F := Ideal) (ix1 (lo e)) = 0#32 :=
  (Cert.Layout.cat_left _ (val_main_v2 (F := Ideal)) (val_main_v3 (F := Ideal)) e _).trans rfl

theorem v4_hi (e : Fin 300000) : val_main_v4 (F := Ideal) (ix1 (hi e)) = 1#32 :=
  (Cert.Layout.cat_right _ (val_main_v2 (F := Ideal)) (val_main_v3 (F := Ideal)) e _).trans rfl

/-! ## Wrapped numbers and columns of start indices -/

theorem col6_apply {α : Type} (a : S600000.Idx → α) (j : Fin 600000) :
    broadcastInDim S600000x1 ![0] bcast_S600000_S600000x1_0 a (ix2 j (0 : Fin 1)) = a (ix1 j) :=
  Cert.Layout.col_apply _ a j 0

theorem v21_apply (x3 x5 : CI S2x300000) (j : Fin 600000) :
    val_main_v21 (F := Ideal) x3 x5 (ix1 j) = wrapS 100000#32 (val_main_v6 (F := Ideal) x3 x5 (ix1 j)) := rfl
theorem v59_apply (x3 x5 : CI S2x300000) (j : Fin 600000) :
    val_main_v59 (F := Ideal) x3 x5 (ix1 j) = wrapS 100000#32 (val_main_v6 (F := Ideal) x3 x5 (ix1 j)) := rfl
theorem v29_apply (x3 x5 : CI S2x300000) (j : Fin 600000) :
    val_main_v29 (F := Ideal) x3 x5 (ix1 j) = wrapS 50000#32 (val_main_v8 (F := Ideal) x3 x5 (ix1 j)) := rfl
theorem v49_apply (x3 x5 : CI S2x300000) (j : Fin 600000) :
    val_main_v49 (F := Ideal) x3 x5 (ix1 j) = wrapS 50000#32 (val_main_v8 (F := Ideal) x3 x5 (ix1 j)) := rfl
theorem v42_apply (j : Fin 600000) :
    val_main_v42 (F := Ideal) (ix1 j) = wrapS 2#32 (val_main_v4 (F := Ideal) (ix1 j)) := rfl

/-! ## Gathers -/

theorem v23_apply (x3 : CI S2x300000) (x4 : CF S300000) (x5 : CI S2x300000) (x6 : CF S300000) (j : Fin 600000) :
    val_main_v23 (F := Ideal) x3 x4 x5 x6 (ix1 j)
      = val_main_v12 (F := Ideal) x3 x4 x5 x6 (ix1 (rowOf 100000 (by decide) 100000#32 (val_main_v6 (F := Ideal) x3 x5 (ix1 j)))) :=
  gatherVec_read (by decide) gather_S100000_S600000x1_S600000_n_0_n_n_0_1_1_wf _ (val_main_v22 (F := Ideal) x3 x5) j _ ((col6_apply _ j).trans (v21_apply x3 x5 j))

theorem v31_apply (x3 : CI S2x300000) (x4 : CF S300000) (x5 : CI S2x300000) (x6 : CF S300000) (j : Fin 600000) :
    val_main_v31 (F := Ideal) x3 x4 x5 x6 (ix1 j)
      = val_main_v16 (F := Ideal) x3 x4 x5 x6 (ix1 (rowOf 50000 (by decide) 50000#32 (val_main_v8 (F := Ideal) x3 x5 (ix1 j)))) :=
  gatherVec_read (by decide) gather_S50000_S600000x1_S600000_n_0_n_n_0_1_1_wf _ (val_main_v30 (F := Ideal) x3 x5) j _ ((col6_apply _ j).trans (v29_apply x3 x5 j))

theorem v44_apply (x2 : CF S2x128) (j : Fin 600000) (d : Fin 128) :
    val_main_v44 (F := Ideal) x2 (ix2 j d) = x2 (ix2 (rowOf 2 (by decide) 2#32 (val_main_v4 (F := Ideal) (ix1 j))) d) :=
  gatherRows_read (by decide) gather_S2x128_S600000x1_S600000x128_1_0_n_n_0_1_1128_wf x2 (val_main_v43 (F := Ideal)) j d _ ((col6_apply _ j).trans (v42_apply j))

theorem v51_apply (x1 : CF S50000x128) (x3 x5 : CI S2x300000) (j : Fin 600000) (d : Fin 128) :
    val_main_v51 (F := Ideal) x1 x3 x5 (ix2 j d)
      = x1 (ix2 (rowOf 50000 (by decide) 50000#32 (val_main_v8 (F := Ideal) x3 x5 (ix1 j))) d) :=
  gatherRows_read (by decide) gather_S50000x128_S600000x1_S600000x128_1_0_n_n_0_1_1128_wf x1 (val_main_v50 (F := Ideal) x3 x5) j d _ ((col6_apply _ j).trans (v49_apply x3 x5 j))

theorem v61_apply (x0 : CF S100000x128) (x3 x5 : CI S2x300000) (j : Fin 600000) (d : Fin 128) :
    val_main_v61 (F := Ideal) x0 x3 x5 (ix2 j d)
      = x0 (ix2 (rowOf 100000 (by decide) 100000#32 (val_main_v6 (F := Ideal) x3 x5 (ix1 j))) d) :=
  gatherRows_read (by decide) gather_S100000x128_S600000x1_S600000x128_1_0_n_n_0_1_1128_wf x0 (val_main_v60 (F := Ideal) x3 x5) j d _ ((col6_apply _ j).trans (v59_apply x3 x5 j))

/-! ## The scale and the message of an edge -/

theorem v36_apply (x3 : CI S2x300000) (x4 : CF S300000) (x5 : CI S2x300000) (x6 : CF S300000) (j : Fin 600000) :
    val_main_v36 (F := Ideal) x3 x4 x5 x6 (ix1 j)
      = val_main_v1 (F := Ideal) x4 x6 (ix1 j)
        * Ideal.div 1 (Ideal.sqrt (val_main_v12 (F := Ideal) x3 x4 x5 x6 (ix1 (rowOf 100000 (by decide) 100000#32 (val_main_v6 (F := Ideal) x3 x5 (ix1 j)))))
            * Ideal.sqrt (val_main_v16 (F := Ideal) x3 x4 x5 x6 (ix1 (rowOf 50000 (by decide) 50000#32 (val_main_v8 (F := Ideal) x3 x5 (ix1 j)))))) := by
  rw [val_main_v36_apply, val_main_v35_apply, val_main_v34_apply, val_main_cst_8_apply, val_main_v33_apply, val_main_v24_apply,
    val_main_v32_apply]
  simp only [Ideal.mulf_def, Ideal.hostDivf_def, Ideal.hostUnary_sqrt_def, Ideal.ofBits_def, Ideal.ofBits_one_f32]
  rw [v23_apply, v31_apply]

theorem v53_apply (x3 : CI S2x300000) (x4 : CF S300000) (x5 : CI S2x300000) (x6 : CF S300000) (j : Fin 600000) (d : Fin 128) :
    val_main_v53 (F := Ideal) x3 x4 x5 x6 (ix2 j d) = val_main_v36 (F := Ideal) x3 x4 x5 x6 (ix1 j) := by
  unfold val_main_v53 val_main_v37
  rw [Cert.Layout.spread_apply, Cert.Layout.col_apply]

theorem v63_apply (x3 : CI S2x300000) (x4 : CF S300000) (x5 : CI S2x300000) (x6 : CF S300000) (j : Fin 600000) (d : Fin 128) :
    val_main_v63 (F := Ideal) x3 x4 x5 x6 (ix2 j d) = val_main_v36 (F := Ideal) x3 x4 x5 x6 (ix1 j) := by
  unfold val_main_v63 val_main_v37
  rw [Cert.Layout.spread_apply, Cert.Layout.col_apply]

theorem v54_apply (x1 : CF S50000x128) (x2 : CF S2x128) (x3 : CI S2x300000) (x4 : CF S300000) (x5 : CI S2x300000) (x6 : CF S300000)
    (j : Fin 600000) (d : Fin 128) :
    val_main_v54 (F := Ideal) x1 x2 x3 x4 x5 x6 (ix2 j d)
      = (x1 (ix2 (rowOf 50000 (by decide) 50000#32 (val_main_v8 (F := Ideal) x3 x5 (ix1 j))) d)
          * x2 (ix2 (rowOf 2 (by decide) 2#32 (val_main_v4 (F := Ideal) (ix1 j))) d))
        * val_main_v36 (F := Ideal) x3 x4 x5 x6 (ix1 j) := by
  unfold val_main_v54 val_main_v52
  rw [mulf_apply, mulf_apply, v51_apply, v44_apply, v53_apply]

theorem v64_apply (x0 : CF S100000x128) (x2 : CF S2x128) (x3 : CI S2x300000) (x4 : CF S300000) (x5 : CI S2x300000) (x6 : CF S300000)
    (j : Fin 600000) (d : Fin 128) :
    val_main_v64 (F := Ideal) x0 x2 x3 x4 x5 x6 (ix2 j d)
      = (x0 (ix2 (rowOf 100000 (by decide) 100000#32 (val_main_v6 (F := Ideal) x3 x5 (ix1 j))) d)
          * x2 (ix2 (rowOf 2 (by decide) 2#32 (val_main_v4 (F := Ideal) (ix1 j))) d))
        * val_main_v36 (F := Ideal) x3 x4 x5 x6 (ix1 j) := by
  unfold val_main_v64 val_main_v62
  rw [mulf_apply, mulf_apply, v61_apply, v44_apply, v63_apply]

/-! ## Messages summed per node -/

theorem v67_apply (x1 : CF S50000x128) (x2 : CF S2x128) (x3 : CI S2x300000) (x4 : CF S300000) (x5 : CI S2x300000) (x6 : CF S300000)
    (u : Fin 100000) (d : Fin 128) :
    val_main_v67 (F := Ideal) x1 x2 x3 x4 x5 x6 (ix2 u d)
      = 0 + ∑ j ∈ Finset.univ.filter (fun j : Fin 600000 => (val_main_v6 (F := Ideal) x3 x5 (ix1 j)).toInt = (u.val : Int)),
          val_main_v54 (F := Ideal) x1 x2 x3 x4 x5 x6 (ix2 j d) := by
  have h := rowScatterAdd_apply (N := 100000) (C := 128) (E := 600000) (φ := .f32) scatter_S100000x128_S600000x1_S600000x128_1_0_0_1_wf
    (val_main_v65 (F := Ideal)) (val_main_v66 (F := Ideal) x3 x5) (val_main_v54 (F := Ideal) x1 x2 x3 x4 x5 x6) u d
  unfold val_main_v66 at h
  simp only [col6_apply] at h
  rw [show val_main_v65 (F := Ideal) (ix2 u d) = 0 from Ideal.ofBits_zero_f32] at h
  exact h

theorem v70_apply (x0 : CF S100000x128) (x2 : CF S2x128) (x3 : CI S2x300000) (x4 : CF S300000) (x5 : CI S2x300000) (x6 : CF S300000)
    (u : Fin 50000) (d : Fin 128) :
    val_main_v70 (F := Ideal) x0 x2 x3 x4 x5 x6 (ix2 u d)
      = 0 + ∑ j ∈ Finset.univ.filter (fun j : Fin 600000 => (val_main_v8 (F := Ideal) x3 x5 (ix1 j)).toInt = (u.val : Int)),
          val_main_v64 (F := Ideal) x0 x2 x3 x4 x5 x6 (ix2 j d) := by
  have h := rowScatterAdd_apply (N := 50000) (C := 128) (E := 600000) (φ := .f32) scatter_S50000x128_S600000x1_S600000x128_1_0_0_1_wf
    (val_main_v68 (F := Ideal)) (val_main_v69 (F := Ideal) x3 x5) (val_main_v64 (F := Ideal) x0 x2 x3 x4 x5 x6) u d
  unfold val_main_v69 at h
  simp only [col6_apply] at h
  rw [show val_main_v68 (F := Ideal) (ix2 u d) = 0 from Ideal.ofBits_zero_f32] at h
  exact h

end Cert.ReferenceIdeal.RefValue

end
-- ==== Proof.Bridge.lean ====
/-
  The two programs aggregate the same messages.

  For a node `u` and a feature column `d` the reference sums, over all 600000 joined edges pointing at `u`, the message
  `(x · r) · (w · 1/(√a · √b))`: the neighbour's feature, the edge's relation row, the weight, and the symmetric
  normalisation by the two endpoints' degrees. The kernel sums each list's 300000 edges separately with the message
  `x · ((w · 1/√a) · 1/√b)` and combines `r₀ · S₀ + r₁ · S₁`. The joined list's first half is the first list and its second
  half the second, with relation numbers 0 and 1; the degrees are the same arrays; features, relation rows and weights are
  finite and every degree is at least one, so every message is a real number and the two arrangements of the sum agree.
-/
import proofs.«150043_j45045617000625_2_alg».proof.Proof.RefRead

noncomputable section

namespace Cert.Bridge

open Cert.ReferenceIdeal Cert.ReferenceIdeal.Gen Cert.ReferenceIdeal.Read Cert.ReferenceIdeal.RefValue Cert.KernelIdeal.HostValue
  Idealize.ShloMosaic Idealize.ShloMosaic.ValueIdx Cert.Spec

/-! ## The joined list's halves -/

theorem lo_or_hi (j : Fin 600000) : (∃ e, j = lo e) ∨ (∃ e, j = hi e) := by
  by_cases h : j.val < 300000
  · exact Or.inl ⟨⟨j.val, h⟩, Fin.ext rfl⟩
  · exact Or.inr ⟨⟨j.val - 300000, by have := j.isLt; omega⟩, Fin.ext (by
      show j.val = 300000 + (j.val - 300000)
      omega)⟩

theorem refU_lo (x3 x5 : RefValue.CI S2x300000) (e : Fin 300000) :
    val_main_v6 (F := Ideal) x3 x5 (ix1 (lo e)) = x3 (ix2 (0 : Fin 2) e) := (v6_apply x3 x5 (lo e)).trans (v0_lo x3 x5 0 e)
theorem refU_hi (x3 x5 : RefValue.CI S2x300000) (e : Fin 300000) :
    val_main_v6 (F := Ideal) x3 x5 (ix1 (hi e)) = x5 (ix2 (0 : Fin 2) e) := (v6_apply x3 x5 (hi e)).trans (v0_hi x3 x5 0 e)
theorem refI_lo (x3 x5 : RefValue.CI S2x300000) (e : Fin 300000) :
    val_main_v8 (F := Ideal) x3 x5 (ix1 (lo e)) = x3 (ix2 (1 : Fin 2) e) := (v8_apply x3 x5 (lo e)).trans (v0_lo x3 x5 1 e)
theorem refI_hi (x3 x5 : RefValue.CI S2x300000) (e : Fin 300000) :
    val_main_v8 (F := Ideal) x3 x5 (ix1 (hi e)) = x5 (ix2 (1 : Fin 2) e) := (v8_apply x3 x5 (hi e)).trans (v0_hi x3 x5 1 e)

theorem rowA_at (x : RefValue.CI S2x300000) (e : Fin 300000) : rowA x (ix1 e) = x (ix2 (0 : Fin 2) e) := rowA_apply x e
theorem rowB_at (x : RefValue.CI S2x300000) (e : Fin 300000) : rowB x (ix1 e) = x (ix2 (1 : Fin 2) e) := rowB_apply x e

theorem catI_lo (a b : RefValue.CI S300000) (e : Fin 300000) : catI a b (ix1 (lo e)) = a (ix1 e) :=
  Cert.Layout.cat_left _ a b e _
theorem catI_hi (a b : RefValue.CI S300000) (e : Fin 300000) : catI a b (ix1 (hi e)) = b (ix1 e) :=
  Cert.Layout.cat_right _ a b e _

/-- The joined user numbers are the two lists' user numbers end to end. -/
theorem v6_eq (x3 x5 : RefValue.CI S2x300000) : val_main_v6 (F := Ideal) x3 x5 = catI (rowA x3) (rowA x5) := by
  funext i
  obtain ⟨j, rfl⟩ : ∃ j : Fin 600000, i = ix1 j := ⟨i 0, eq_ix1 i⟩
  rcases lo_or_hi j with ⟨e, rfl⟩ | ⟨e, rfl⟩
  · rw [refU_lo, catI_lo, rowA_at]
  · rw [refU_hi, catI_hi, rowA_at]

/-- The joined item numbers are the two lists' item numbers end to end. -/
theorem v8_eq (x3 x5 : RefValue.CI S2x300000) : val_main_v8 (F := Ideal) x3 x5 = catI (rowB x3) (rowB x5) := by
  funext i
  obtain ⟨j, rfl⟩ : ∃ j : Fin 600000, i = ix1 j := ⟨i 0, eq_ix1 i⟩
  rcases lo_or_hi j with ⟨e, rfl⟩ | ⟨e, rfl⟩
  · rw [refI_lo, catI_lo, rowB_at]
  · rw [refI_hi, catI_hi, rowB_at]

/-- The two programs compute the users' degrees from the same numbers and weights by the same operations. -/
theorem degU_eq (x3 : RefValue.CI S2x300000) (x4 : RefValue.CF S300000) (x5 : RefValue.CI S2x300000) (x6 : RefValue.CF S300000) :
    val_main_v12 (F := Ideal) x3 x4 x5 x6 = degU (catI (rowA x3) (rowA x5)) (catF x4 x6) := by
  have h : val_main_v12 (F := Ideal) x3 x4 x5 x6 = degU (val_main_v6 (F := Ideal) x3 x5) (catF x4 x6) := rfl
  rw [h, v6_eq]

/-- … and the items' degrees. -/
theorem degI_eq (x3 : RefValue.CI S2x300000) (x4 : RefValue.CF S300000) (x5 : RefValue.CI S2x300000) (x6 : RefValue.CF S300000) :
    val_main_v16 (F := Ideal) x3 x4 x5 x6 = degI (catI (rowB x3) (rowB x5)) (catF x4 x6) := by
  have h : val_main_v16 (F := Ideal) x3 x4 x5 x6 = degI (val_main_v8 (F := Ideal) x3 x5) (catF x4 x6) := rfl
  rw [h, v8_eq]

/-- Relation number 0 names row 0 of the relation table, relation number 1 row 1. -/
theorem rowOf2_zero : rowOf 2 (by decide) 2#32 0#32 = (0 : Fin 2) := by decide
theorem rowOf2_one : rowOf 2 (by decide) 2#32 1#32 = (1 : Fin 2) := by decide

/-! ## The kernel's aggregated messages at a node and a column -/

theorem newU_apply (x1 : RefValue.CF S50000x128) (x2 : RefValue.CF S2x128) (x3 : RefValue.CI S2x300000) (x4 : RefValue.CF S300000)
    (x5 : RefValue.CI S2x300000) (x6 : RefValue.CF S300000) (u : Fin 100000) (d : Fin 128) :
    newU x1 x2 x3 x4 x5 x6 (ix2 u d)
      = x2 (ix2 (0 : Fin 2) d) * (0 + ∑ e ∈ Finset.univ.filter (fun e : Fin 300000 => (x3 (ix2 (0 : Fin 2) e)).toInt = (u.val : Int)),
            x1 (ix2 (rowOf 50000 (by decide) 50000#32 (x3 (ix2 (1 : Fin 2) e))) d)
              * ((x4 (ix1 e) * Cert.Alg.isq (degU (catI (rowA x3) (rowA x5)) (catF x4 x6)
                    (ix1 (rowOf 100000 (by decide) 100000#32 (x3 (ix2 (0 : Fin 2) e))))))
                  * Cert.Alg.isq (degI (catI (rowB x3) (rowB x5)) (catF x4 x6)
                    (ix1 (rowOf 50000 (by decide) 50000#32 (x3 (ix2 (1 : Fin 2) e)))))))
        + x2 (ix2 (1 : Fin 2) d) * (0 + ∑ e ∈ Finset.univ.filter (fun e : Fin 300000 => (x5 (ix2 (0 : Fin 2) e)).toInt = (u.val : Int)),
            x1 (ix2 (rowOf 50000 (by decide) 50000#32 (x5 (ix2 (1 : Fin 2) e))) d)
              * ((x6 (ix1 e) * Cert.Alg.isq (degU (catI (rowA x3) (rowA x5)) (catF x4 x6)
                    (ix1 (rowOf 100000 (by decide) 100000#32 (x5 (ix2 (0 : Fin 2) e))))))
                  * Cert.Alg.isq (degI (catI (rowB x3) (rowB x5)) (catF x4 x6)
                    (ix1 (rowOf 50000 (by decide) 50000#32 (x5 (ix2 (1 : Fin 2) e))))))) := by
  unfold newU
  rw [addf_apply, mulf_apply, mulf_apply, overU_apply, overU_apply, relA_apply, relB_apply, msgU_apply, msgU_apply]
  simp only [phiU_apply, sclT0, sclT1, scl_apply, invU_apply, invI_apply, rowA_at, rowB_at]

theorem newI_apply (x0 : RefValue.CF S100000x128) (x2 : RefValue.CF S2x128) (x3 : RefValue.CI S2x300000) (x4 : RefValue.CF S300000)
    (x5 : RefValue.CI S2x300000) (x6 : RefValue.CF S300000) (u : Fin 50000) (d : Fin 128) :
    newI x0 x2 x3 x4 x5 x6 (ix2 u d)
      = x2 (ix2 (0 : Fin 2) d) * (0 + ∑ e ∈ Finset.univ.filter (fun e : Fin 300000 => (x3 (ix2 (1 : Fin 2) e)).toInt = (u.val : Int)),
            x0 (ix2 (rowOf 100000 (by decide) 100000#32 (x3 (ix2 (0 : Fin 2) e))) d)
              * ((x4 (ix1 e) * Cert.Alg.isq (degU (catI (rowA x3) (rowA x5)) (catF x4 x6)
                    (ix1 (rowOf 100000 (by decide) 100000#32 (x3 (ix2 (0 : Fin 2) e))))))
                  * Cert.Alg.isq (degI (catI (rowB x3) (rowB x5)) (catF x4 x6)
                    (ix1 (rowOf 50000 (by decide) 50000#32 (x3 (ix2 (1 : Fin 2) e)))))))
        + x2 (ix2 (1 : Fin 2) d) * (0 + ∑ e ∈ Finset.univ.filter (fun e : Fin 300000 => (x5 (ix2 (1 : Fin 2) e)).toInt = (u.val : Int)),
            x0 (ix2 (rowOf 100000 (by decide) 100000#32 (x5 (ix2 (0 : Fin 2) e))) d)
              * ((x6 (ix1 e) * Cert.Alg.isq (degU (catI (rowA x3) (rowA x5)) (catF x4 x6)
                    (ix1 (rowOf 100000 (by decide) 100000#32 (x5 (ix2 (0 : Fin 2) e))))))
                  * Cert.Alg.isq (degI (catI (rowB x3) (rowB x5)) (catF x4 x6)
                    (ix1 (rowOf 50000 (by decide) 50000#32 (x5 (ix2 (1 : Fin 2) e))))))) := by
  unfold newI
  rw [addf_apply, mulf_apply, mulf_apply, overI_apply, overI_apply, relA_apply, relB_apply, msgI_apply, msgI_apply]
  simp only [phiI_apply, sclT0, sclT1, scl_apply, invU_apply, invI_apply, rowA_at, rowB_at]

/-! ## The two aggregations agree -/

/-- The users' aggregated messages: the reference's sum over the joined edges is the kernel's combination of the two
    lists' sums, when features, relation rows and weights are finite. -/
theorem msgU_eq (x1 : RefValue.CF S50000x128) (x2 : RefValue.CF S2x128) (x3 : RefValue.CI S2x300000) (x4 : RefValue.CF S300000)
    (x5 : RefValue.CI S2x300000) (x6 : RefValue.CF S300000)
    (h1 : ∀ i, ∃ r : ℝ, x1 i = (r : EReal)) (h2 : ∀ i, ∃ r : ℝ, x2 i = (r : EReal))
    (h4 : ∀ i, ∃ r : ℝ, x4 i = (r : EReal)) (h6 : ∀ i, ∃ r : ℝ, x6 i = (r : EReal)) :
    val_main_v67 (F := Ideal) x1 x2 x3 x4 x5 x6 = newU x1 x2 x3 x4 x5 x6 := by
  choose X1 hX1 using h1
  choose X2 hX2 using h2
  choose X4 hX4 using h4
  choose X6 hX6 using h6
  funext i
  obtain ⟨u, d, rfl⟩ : ∃ (u : Fin 100000) (d : Fin 128), i = ix2 u d := ⟨i 0, i 1, eq_ix2 i⟩
  rw [newU_apply, v67_apply]
  have hs := Cert.Alg.split_sum (n := 300000)
    (fun j : Fin (300000 + 300000) => (val_main_v6 (F := Ideal) x3 x5 (ix1 j)).toInt = (u.val : Int))
    (fun j : Fin (300000 + 300000) => val_main_v54 (F := Ideal) x1 x2 x3 x4 x5 x6 (ix2 j d))
  refine (congrArg (fun s : EReal => 0 + s) hs).trans ?_
  simp only [v54_apply, v36_apply, refU_lo, refU_hi, refI_lo, refI_hi, v4_lo, v4_hi, v1_lo, v1_hi, degU_eq, degI_eq,
    rowOf2_zero, rowOf2_one, hX1, hX2, hX4, hX6]
  rw [zero_add]
  refine congrArg₂ (fun a b : EReal => a + b) ?_ ?_
  · exact Cert.Alg.type_sum _ _ _ _ _ (fun e => degU_ge _ _ _) (fun e => degI_ge _ _ _) _
  · exact Cert.Alg.type_sum _ _ _ _ _ (fun e => degU_ge _ _ _) (fun e => degI_ge _ _ _) _

/-- The items' aggregated messages, likewise. -/
theorem msgI_eq (x0 : RefValue.CF S100000x128) (x2 : RefValue.CF S2x128) (x3 : RefValue.CI S2x300000) (x4 : RefValue.CF S300000)
    (x5 : RefValue.CI S2x300000) (x6 : RefValue.CF S300000)
    (h0 : ∀ i, ∃ r : ℝ, x0 i = (r : EReal)) (h2 : ∀ i, ∃ r : ℝ, x2 i = (r : EReal))
    (h4 : ∀ i, ∃ r : ℝ, x4 i = (r : EReal)) (h6 : ∀ i, ∃ r : ℝ, x6 i = (r : EReal)) :
    val_main_v70 (F := Ideal) x0 x2 x3 x4 x5 x6 = newI x0 x2 x3 x4 x5 x6 := by
  choose X0 hX0 using h0
  choose X2 hX2 using h2
  choose X4 hX4 using h4
  choose X6 hX6 using h6
  funext i
  obtain ⟨u, d, rfl⟩ : ∃ (u : Fin 50000) (d : Fin 128), i = ix2 u d := ⟨i 0, i 1, eq_ix2 i⟩
  rw [newI_apply, v70_apply]
  have hs := Cert.Alg.split_sum (n := 300000)
    (fun j : Fin (300000 + 300000) => (val_main_v8 (F := Ideal) x3 x5 (ix1 j)).toInt = (u.val : Int))
    (fun j : Fin (300000 + 300000) => val_main_v64 (F := Ideal) x0 x2 x3 x4 x5 x6 (ix2 j d))
  refine (congrArg (fun s : EReal => 0 + s) hs).trans ?_
  simp only [v64_apply, v36_apply, refU_lo, refU_hi, refI_lo, refI_hi, v4_lo, v4_hi, v1_lo, v1_hi, degU_eq, degI_eq,
    rowOf2_zero, rowOf2_one, hX0, hX2, hX4, hX6]
  rw [zero_add]
  refine congrArg₂ (fun a b : EReal => a + b) ?_ ?_
  · exact Cert.Alg.type_sum _ _ _ _ _ (fun e => degU_ge _ _ _) (fun e => degI_ge _ _ _) _
  · exact Cert.Alg.type_sum _ _ _ _ _ (fun e => degU_ge _ _ _) (fun e => degI_ge _ _ _) _

end Cert.Bridge

end
-- ==== Proof.Claims.lean ====
/- The five claims. The three frames are the generated ones (the reference's is its generated run with the results
   dropped). The value claim: from memories agreeing on the arguments, both idealized programs end with the same three
   results — each message update the logistic function of (aggregated messages) × (weight matrix transposed), the third
   result the relation table × (third weight matrix transposed). -/
import proofs.«150043_j45045617000625_2_alg».proof.Defs
import proofs.«150043_j45045617000625_2_alg».proof.Proof.Gen.Kernel.Frame
import proofs.«150043_j45045617000625_2_alg».proof.Proof.KernelValue
import proofs.«150043_j45045617000625_2_alg».proof.Proof.KernelHost
import proofs.«150043_j45045617000625_2_alg».proof.Proof.PreFinite
import proofs.«150043_j45045617000625_2_alg».proof.Proof.RefSigmoid
import proofs.«150043_j45045617000625_2_alg».proof.Proof.Bridge
import proofs.«150043_j45045617000625_2_alg».proof.Proof.Gen.ReferenceIdeal.Run
import proofs.«150043_j45045617000625_2_alg».proof.Proof.Gen.ReferenceIdeal.Read

noncomputable section

open Idealize.ShloMosaic Idealize.ShloMosaic.TcCoe Idealize.SL.Sem

namespace Cert.Proof.Claims

open Cert.KernelIdeal.RunValue (mmSigU mmSigI)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

section Results

variable (m : (ℓ : Loc Cert.KernelIdeal.nD Cert.KernelIdeal.τ Cert.KernelIdeal.sig) → Buf (Elt Ideal) ℓ) (ρ : Dev Cert.KernelIdeal.nD → PrngReg)
  (m' : (ℓ : Loc Cert.ReferenceIdeal.nD Cert.ReferenceIdeal.τ Cert.ReferenceIdeal.sig) → Buf (Elt Ideal) ℓ) (c : Dev Cert.KernelIdeal.nD)

/-- The users' update. The reference's result is the logistic function of its aggregated user messages times the
    transposed weights; on real-valued inputs those messages are the kernel's host-side aggregate, and the kernel's first
    call computes the same function of them. -/
theorem users_eq
    (a1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (f1 : ∀ i, ∃ r : ℝ, (m ((c.tc : Thread Cert.KernelIdeal.nD Cert.KernelIdeal.τ).loc Cert.KernelIdeal.main_arg1) : Cert.KernelIdeal.S50000x128.Idx → EReal) i = (r : EReal))
    (f2 : ∀ i, ∃ r : ℝ, (m ((c.tc : Thread Cert.KernelIdeal.nD Cert.KernelIdeal.τ).loc Cert.KernelIdeal.main_arg2) : Cert.KernelIdeal.S2x128.Idx → EReal) i = (r : EReal))
    (f4 : ∀ i, ∃ r : ℝ, (m ((c.tc : Thread Cert.KernelIdeal.nD Cert.KernelIdeal.τ).loc Cert.KernelIdeal.main_arg4) : Cert.KernelIdeal.S300000.Idx → EReal) i = (r : EReal))
    (f6 : ∀ i, ∃ r : ℝ, (m ((c.tc : Thread Cert.KernelIdeal.nD Cert.KernelIdeal.τ).loc Cert.KernelIdeal.main_arg6) : Cert.KernelIdeal.S300000.Idx → EReal) i = (r : EReal)) :
    Cert.ReferenceIdeal.Value.res_main_v78 m' c
      = mmSigU (Cert.KernelIdeal.Gen.W5 m ρ c (Proc.devRef .tc Cert.KernelIdeal.main_v93)) (Cert.KernelIdeal.Gen.W5 m ρ c (Proc.devRef .tc Cert.KernelIdeal.main_v131)) := by
  have e := Cert.Bridge.msgU_eq (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) f1 f2 f4 f6
  rw [Cert.ReferenceIdeal.Read.val_main_v78_eq, Cert.ReferenceIdeal.RefValue.v78_eq, a1, a2, a3, a4, a5, a6, a7, e,
    Cert.KernelIdeal.HostValue.W5_v93, Cert.KernelIdeal.HostValue.W5_v131]
  rfl

/-- The items' update, likewise. -/
theorem items_eq
    (a0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (a4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (a5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (a6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (a8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (f0 : ∀ i, ∃ r : ℝ, (m ((c.tc : Thread Cert.KernelIdeal.nD Cert.KernelIdeal.τ).loc Cert.KernelIdeal.main_arg0) : Cert.KernelIdeal.S100000x128.Idx → EReal) i = (r : EReal))
    (f2 : ∀ i, ∃ r : ℝ, (m ((c.tc : Thread Cert.KernelIdeal.nD Cert.KernelIdeal.τ).loc Cert.KernelIdeal.main_arg2) : Cert.KernelIdeal.S2x128.Idx → EReal) i = (r : EReal))
    (f4 : ∀ i, ∃ r : ℝ, (m ((c.tc : Thread Cert.KernelIdeal.nD Cert.KernelIdeal.τ).loc Cert.KernelIdeal.main_arg4) : Cert.KernelIdeal.S300000.Idx → EReal) i = (r : EReal))
    (f6 : ∀ i, ∃ r : ℝ, (m ((c.tc : Thread Cert.KernelIdeal.nD Cert.KernelIdeal.τ).loc Cert.KernelIdeal.main_arg6) : Cert.KernelIdeal.S300000.Idx → EReal) i = (r : EReal)) :
    Cert.ReferenceIdeal.Value.res_main_v86 m' c
      = mmSigI (Cert.KernelIdeal.Gen.W5 m ρ c (Proc.devRef .tc Cert.KernelIdeal.main_v130)) (Cert.KernelIdeal.Gen.W5 m ρ c (Proc.devRef .tc Cert.KernelIdeal.main_v132)) := by
  have e := Cert.Bridge.msgI_eq (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) f0 f2 f4 f6
  rw [Cert.ReferenceIdeal.Read.val_main_v86_eq, Cert.ReferenceIdeal.RefValue.v86_eq, a0, a2, a3, a4, a5, a6, a8, e,
    Cert.KernelIdeal.HostValue.W5_v130, Cert.KernelIdeal.HostValue.W5_v132]
  rfl

/-- The third result: both programs multiply the relation table by the third weight matrix transposed. -/
theorem third_eq
    (a2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (a9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.Read.val_main_v88 (F := Ideal) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg9))
      = (Cert.KernelIdeal.Gen.W8 m ρ c (Proc.devRef .tc Cert.KernelIdeal.main_v136) : Cert.KernelIdeal.S2x128.Idx → EReal) := by
  rw [a2, a9, Cert.KernelIdeal.HostValue.W8_v136]
  rfl

end Results

/-- From memories agreeing on the arguments, the idealized kernel program and the idealized reference both run and end
    with equal results and unchanged arguments. -/
theorem algebraic : Cert.algebraic_KernelIdeal_ReferenceIdeal := by
  intro m ρ m' ρ' hpre hagree
  refine ⟨fun c => mmSigU (Cert.KernelIdeal.Gen.W5 m ρ c (Proc.devRef .tc Cert.KernelIdeal.main_v93)) (Cert.KernelIdeal.Gen.W5 m ρ c (Proc.devRef .tc Cert.KernelIdeal.main_v131)),
    fun c => mmSigI (Cert.KernelIdeal.Gen.W5 m ρ c (Proc.devRef .tc Cert.KernelIdeal.main_v130)) (Cert.KernelIdeal.Gen.W5 m ρ c (Proc.devRef .tc Cert.KernelIdeal.main_v132)),
    fun c => Cert.KernelIdeal.Gen.W8 m ρ c (Proc.devRef .tc Cert.KernelIdeal.main_v136),
    Cert.KernelIdeal.RunValue.run m ρ, ?_⟩
  refine (θ_run Cert.ReferenceIdeal.defs _ _).mono (fun r h c => ?_) (Cert.ReferenceIdeal.Value.run (F := Ideal) m' ρ')
  obtain ⟨h78, h86, h88, hargs⟩ := h c
  obtain ⟨a0, a1, a2, a3, a4, a5, a6, a7, a8, a9⟩ := hagree c
  obtain ⟨f0, f1, f2, f4, f6⟩ := Cert.PreFinite.finite _ _ _ _ _ _ _ _ _ _ (hpre c)
  exact ⟨h78.trans (users_eq m ρ m' c a1 a2 a3 a4 a5 a6 a7 f1 f2 f4 f6),
    h86.trans (items_eq m ρ m' c a0 a2 a3 a4 a5 a6 a8 f0 f2 f4 f6),
    h88.trans ((Cert.ReferenceIdeal.Read.val_main_v88_eq _ _).trans (third_eq m ρ m' c a2 a9)), hargs⟩

end Cert.Proof.Claims

end
-- ==== Proof.lean ====
/-
  The certificate for a relational graph-convolution layer: a kernel program against its jnp reference, on the extended reals.

  Both programs pass messages along two lists of weighted user–item edges (one list per relation type): every edge carries
  its far endpoint's features, scaled by the edge weight and by one over the square roots of the two endpoints' clipped
  weighted degrees, and multiplied by its relation's row of a two-row table; a node's new message is the sum over the
  edges that point at it. The reference joins the two lists and sums once; the kernel sums each list separately, without
  the relation row, and combines `r₀ · S₀ + r₁ · S₁` afterwards. Each then multiplies the messages by a transposed weight
  matrix and applies the logistic function — the reference as `1 / (1 + e^(-y))` on the host, the kernel in two blocked
  matrix-product launches (row blocks of 10000) — and both multiply the relation table by a third transposed matrix.
  With finite features, relation rows and weights and degrees at least one, every message is a real number, so a common
  factor moves out of a sum and a sum over the joined list splits into the two lists' sums: the three results agree
  element by element. The idealization rewrote no operation, and the three frames are the generated ones.
-/
import proofs.«150043_j45045617000625_2_alg».proof.Defs
import proofs.«150043_j45045617000625_2_alg».proof.Proof.Gen.Kernel
import proofs.«150043_j45045617000625_2_alg».proof.Proof.Gen.Kernel.Skeleton
import proofs.«150043_j45045617000625_2_alg».proof.Proof.Gen.Kernel.Launch
import proofs.«150043_j45045617000625_2_alg».proof.Proof.Gen.Kernel.Points
import proofs.«150043_j45045617000625_2_alg».proof.Proof.Gen.Kernel.Frame
import proofs.«150043_j45045617000625_2_alg».proof.Proof.Gen.KernelIdeal
import proofs.«150043_j45045617000625_2_alg».proof.Proof.Gen.KernelIdeal.Skeleton
import proofs.«150043_j45045617000625_2_alg».proof.Proof.Gen.KernelIdeal.Launch
import proofs.«150043_j45045617000625_2_alg».proof.Proof.Gen.KernelIdeal.Points
import proofs.«150043_j45045617000625_2_alg».proof.Proof.Gen.KernelIdeal.Frame
import proofs.«150043_j45045617000625_2_alg».proof.Proof.Gen.ReferenceIdeal
import proofs.«150043_j45045617000625_2_alg».proof.Proof.Gen.Pre_finite_inputs
import proofs.«150043_j45045617000625_2_alg».proof.Proof.Gen.ReferenceIdeal.Run
import proofs.«150043_j45045617000625_2_alg».proof.Proof.Gen.ReferenceIdeal.Read
import proofs.«150043_j45045617000625_2_alg».proof.Proof.Claims
import Idealize.ShloMosaic.Adequacy
import Idealize.ShloMosaic.Init

noncomputable section

namespace Cert.Proof

open Idealize.ShloMosaic Idealize.SL.Sem Cert.Kernel

/-- The five claims under the programs' stated side conditions: the three frames, the trivial preservation, and the
    equality of the three results on the extended reals. -/
theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
